-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x80x1 : Shape := ⟨3, ![64, 80, 1]⟩
abbrev S64x64x1 : Shape := ⟨3, ![64, 64, 1]⟩
abbrev S107127x80 : Shape := ⟨2, ![107127, 80]⟩
abbrev S107127x64 : Shape := ⟨2, ![107127, 64]⟩
abbrev S_ : Shape := ⟨0, ![]⟩

class Facts : Prop where
  bcast_S_S64x80x1 : S_.BroadcastsInDim S64x80x1 (![] : Fin 0 → Fin S64x80x1.rank)
  reducesTo_S64x80x1_S_d0_1_2 : S64x80x1.ReducesTo [0, 1, 2] S_
  h_S_ : 0 < S_.numel
  bcast_S_S64x64x1 : S_.BroadcastsInDim S64x64x1 (![] : Fin 0 → Fin S64x64x1.rank)
  reducesTo_S64x64x1_S_d0_1_2 : S64x64x1.ReducesTo [0, 1, 2] S_
  bcast_S_S107127x80 : S_.BroadcastsInDim S107127x80 (![] : Fin 0 → Fin S107127x80.rank)
  reducesTo_S107127x80_S_d0_1 : S107127x80.ReducesTo [0, 1] S_
  bcast_S_S107127x64 : S_.BroadcastsInDim S107127x64 (![] : Fin 0 → Fin S107127x64.rank)
  reducesTo_S107127x64_S_d0_1 : S107127x64.ReducesTo [0, 1] S_

variable [Facts]

def fn_part1 {F : FTy → Type} [FloatOps F] (main_arg4 : FVec F S107127x80 .f32) (main_arg5 : FVec F S107127x64 .f32) (main_v13 : IVec S_ 1) (main_v16 : IVec S64x64x1 1) : IVec S_ 1 :=
  let main_c_5 : IVec S_ 1 := constantI S_ 1 1#1
  let main_v17 : IVec S_ 1 := (fun x v => Host.reduce IntOp.andi x v reducesTo_S64x64x1_S_d0_1_2 h_S_) main_v16 main_c_5
  let main_v18 : IVec S_ 1 := andi main_v13 main_v17
  let main_v19 : FVec F S107127x80 .f32 := Host.absf main_arg4
  let main_cst_6 : FVec F S_ .f32 := constant S_ .f32 0x7F800000#32
  let main_v20 : FVec F S107127x80 .f32 := broadcastInDim S107127x80 ![] bcast_S_S107127x80 main_cst_6
  let main_v21 : IVec S107127x80 1 := cmpf .olt main_v19 main_v20
  let main_c_7 : IVec S_ 1 := constantI S_ 1 1#1
  let main_v22 : IVec S_ 1 := (fun x v => Host.reduce IntOp.andi x v reducesTo_S107127x80_S_d0_1 h_S_) main_v21 main_c_7
  let main_v23 : IVec S_ 1 := andi main_v18 main_v22
  let main_v24 : FVec F S107127x64 .f32 := Host.absf main_arg5
  let main_cst_8 : FVec F S_ .f32 := constant S_ .f32 0x7F800000#32
  let main_v25 : FVec F S107127x64 .f32 := broadcastInDim S107127x64 ![] bcast_S_S107127x64 main_cst_8
  let main_v26 : IVec S107127x64 1 := cmpf .olt main_v24 main_v25
  let main_c_9 : IVec S_ 1 := constantI S_ 1 1#1
  let main_v27 : IVec S_ 1 := (fun x v => Host.reduce IntOp.andi x v reducesTo_S107127x64_S_d0_1 h_S_) main_v26 main_c_9
  let main_v28 : IVec S_ 1 := andi main_v23 main_v27
  main_v28

def fn {F : FTy → Type} [FloatOps F] (main_arg0 : FVec F S64x80x1 .f32) (main_arg1 : FVec F S64x64x1 .f32) (main_arg2 : FVec F S64x80x1 .f32) (main_arg3 : FVec F S64x64x1 .f32) (main_arg4 : FVec F S107127x80 .f32) (main_arg5 : FVec F S107127x64 .f32) : IVec S_ 1 :=
  let main_v0 : FVec F S64x80x1 .f32 := Host.absf main_arg0
  let main_cst : FVec F S_ .f32 := constant S_ .f32 0x7F800000#32
  let main_v1 : FVec F S64x80x1 .f32 := broadcastInDim S64x80x1 ![] bcast_S_S64x80x1 main_cst
  let main_v2 : IVec S64x80x1 1 := cmpf .olt main_v0 main_v1
  let main_c : IVec S_ 1 := constantI S_ 1 1#1
  let main_v3 : IVec S_ 1 := (fun x v => Host.reduce IntOp.andi x v reducesTo_S64x80x1_S_d0_1_2 h_S_) main_v2 main_c
  let main_v4 : FVec F S64x64x1 .f32 := Host.absf main_arg1
  let main_cst_0 : FVec F S_ .f32 := constant S_ .f32 0x7F800000#32
  let main_v5 : FVec F S64x64x1 .f32 := broadcastInDim S64x64x1 ![] bcast_S_S64x64x1 main_cst_0
  let main_v6 : IVec S64x64x1 1 := cmpf .olt main_v4 main_v5
  let main_c_1 : IVec S_ 1 := constantI S_ 1 1#1
  let main_v7 : IVec S_ 1 := (fun x v => Host.reduce IntOp.andi x v reducesTo_S64x64x1_S_d0_1_2 h_S_) main_v6 main_c_1
  let main_v8 : IVec S_ 1 := andi main_v3 main_v7
  let main_v9 : FVec F S64x80x1 .f32 := Host.absf main_arg2
  let main_cst_2 : FVec F S_ .f32 := constant S_ .f32 0x7F800000#32
  let main_v10 : FVec F S64x80x1 .f32 := broadcastInDim S64x80x1 ![] bcast_S_S64x80x1 main_cst_2
  let main_v11 : IVec S64x80x1 1 := cmpf .olt main_v9 main_v10
  let main_c_3 : IVec S_ 1 := constantI S_ 1 1#1
  let main_v12 : IVec S_ 1 := (fun x v => Host.reduce IntOp.andi x v reducesTo_S64x80x1_S_d0_1_2 h_S_) main_v11 main_c_3
  let main_v13 : IVec S_ 1 := andi main_v8 main_v12
  let main_v14 : FVec F S64x64x1 .f32 := Host.absf main_arg3
  let main_cst_4 : FVec F S_ .f32 := constant S_ .f32 0x7F800000#32
  let main_v15 : FVec F S64x64x1 .f32 := broadcastInDim S64x64x1 ![] bcast_S_S64x64x1 main_cst_4
  let main_v16 : IVec S64x64x1 1 := cmpf .olt main_v14 main_v15
  fn_part1 (F := F) main_arg4 main_arg5 main_v13 main_v16
-- ==== Kernel.lean ====
abbrev S64x80x1 : Shape := ⟨3, ![64, 80, 1]⟩
abbrev S64x64x1 : Shape := ⟨3, ![64, 64, 1]⟩
abbrev S107127x80 : Shape := ⟨2, ![107127, 80]⟩
abbrev S107127x64 : Shape := ⟨2, ![107127, 64]⟩
abbrev S204 : Shape := ⟨1, ![204]⟩
abbrev S204x1 : Shape := ⟨2, ![204, 1]⟩
abbrev S_ : Shape := ⟨0, ![]⟩
abbrev S1 : Shape := ⟨1, ![1]⟩
abbrev S1x1 : Shape := ⟨2, ![1, 1]⟩
abbrev S204x80 : Shape := ⟨2, ![204, 80]⟩
abbrev S204x64 : Shape := ⟨2, ![204, 64]⟩
abbrev S64x80 : Shape := ⟨2, ![64, 80]⟩
abbrev S64x64 : Shape := ⟨2, ![64, 64]⟩
abbrev S80x64 : Shape := ⟨2, ![80, 64]⟩

abbrev nBuf : Space → Nat
  | .hbm => 60
  | .vmem => 8
  | .smem => 0
  | _ => 0

abbrev bufTy : (tb : Table) → Fin (tcTables nBuf tb) → BufTy
  | .hbm, ⟨0, _⟩ => ⟨S64x80x1, .f32⟩
  | .hbm, ⟨1, _⟩ => ⟨S64x64x1, .f32⟩
  | .hbm, ⟨2, _⟩ => ⟨S64x80x1, .f32⟩
  | .hbm, ⟨3, _⟩ => ⟨S64x64x1, .f32⟩
  | .hbm, ⟨4, _⟩ => ⟨S107127x80, .f32⟩
  | .hbm, ⟨5, _⟩ => ⟨S107127x64, .f32⟩
  | .hbm, ⟨6, _⟩ => ⟨S204, .i32⟩
  | .hbm, ⟨7, _⟩ => ⟨S204x1, .f32⟩
  | .hbm, ⟨8, _⟩ => ⟨S_, .i32⟩
  | .hbm, ⟨9, _⟩ => ⟨S204, .i32⟩
  | .hbm, ⟨10, _⟩ => ⟨S204, .i1⟩
  | .hbm, ⟨11, _⟩ => ⟨S_, .i32⟩
  | .hbm, ⟨12, _⟩ => ⟨S204, .i32⟩
  | .hbm, ⟨13, _⟩ => ⟨S204, .i32⟩
  | .hbm, ⟨14, _⟩ => ⟨S204, .i32⟩
  | .hbm, ⟨15, _⟩ => ⟨S204x1, .i32⟩
  | .hbm, ⟨16, _⟩ => ⟨S1, .i32⟩
  | .hbm, ⟨17, _⟩ => ⟨S_, .i32⟩
  | .hbm, ⟨18, _⟩ => ⟨S204x1, .i32⟩
  | .hbm, ⟨19, _⟩ => ⟨S204x1, .i1⟩
  | .hbm, ⟨20, _⟩ => ⟨S1x1, .i32⟩
  | .hbm, ⟨21, _⟩ => ⟨S204x1, .i32⟩
  | .hbm, ⟨22, _⟩ => ⟨S204x1, .i1⟩
  | .hbm, ⟨23, _⟩ => ⟨S204x1, .i1⟩
  | .hbm, ⟨24, _⟩ => ⟨S_, .i1⟩
  | .hbm, ⟨25, _⟩ => ⟨S204, .i1⟩
  | .hbm, ⟨26, _⟩ => ⟨S204x80, .f32⟩
  | .hbm, ⟨27, _⟩ => ⟨S204x80, .i1⟩
  | .hbm, ⟨28, _⟩ => ⟨S_, .f32⟩
  | .hbm, ⟨29, _⟩ => ⟨S204x80, .f32⟩
  | .hbm, ⟨30, _⟩ => ⟨S204x80, .f32⟩
  | .hbm, ⟨31, _⟩ => ⟨S_, .i32⟩
  | .hbm, ⟨32, _⟩ => ⟨S204, .i32⟩
  | .hbm, ⟨33, _⟩ => ⟨S204, .i1⟩
  | .hbm, ⟨34, _⟩ => ⟨S_, .i32⟩
  | .hbm, ⟨35, _⟩ => ⟨S204, .i32⟩
  | .hbm, ⟨36, _⟩ => ⟨S204, .i32⟩
  | .hbm, ⟨37, _⟩ => ⟨S204, .i32⟩
  | .hbm, ⟨38, _⟩ => ⟨S204x1, .i32⟩
  | .hbm, ⟨39, _⟩ => ⟨S1, .i32⟩
  | .hbm, ⟨40, _⟩ => ⟨S_, .i32⟩
  | .hbm, ⟨41, _⟩ => ⟨S204x1, .i32⟩
  | .hbm, ⟨42, _⟩ => ⟨S204x1, .i1⟩
  | .hbm, ⟨43, _⟩ => ⟨S1x1, .i32⟩
  | .hbm, ⟨44, _⟩ => ⟨S204x1, .i32⟩
  | .hbm, ⟨45, _⟩ => ⟨S204x1, .i1⟩
  | .hbm, ⟨46, _⟩ => ⟨S204x1, .i1⟩
  | .hbm, ⟨47, _⟩ => ⟨S_, .i1⟩
  | .hbm, ⟨48, _⟩ => ⟨S204, .i1⟩
  | .hbm, ⟨49, _⟩ => ⟨S204x64, .f32⟩
  | .hbm, ⟨50, _⟩ => ⟨S204x64, .i1⟩
  | .hbm, ⟨51, _⟩ => ⟨S_, .f32⟩
  | .hbm, ⟨52, _⟩ => ⟨S204x64, .f32⟩
  | .hbm, ⟨53, _⟩ => ⟨S204x64, .f32⟩
  | .hbm, ⟨54, _⟩ => ⟨S64x80, .f32⟩
  | .hbm, ⟨55, _⟩ => ⟨S64x64, .f32⟩
  | .hbm, ⟨56, _⟩ => ⟨S64x80, .f32⟩
  | .hbm, ⟨57, _⟩ => ⟨S64x64, .f32⟩
  | .hbm, ⟨58, _⟩ => ⟨S1x1, .f32⟩
  | .hbm, ⟨59, _⟩ => ⟨S_, .f32⟩
  | .local _ .vmem, ⟨0, _⟩ => ⟨S204x80, .f32⟩
  | .local _ .vmem, ⟨1, _⟩ => ⟨S204x64, .f32⟩
  | .local _ .vmem, ⟨2, _⟩ => ⟨S64x80, .f32⟩
  | .local _ .vmem, ⟨3, _⟩ => ⟨S64x64, .f32⟩
  | .local _ .vmem, ⟨4, _⟩ => ⟨S64x80, .f32⟩
  | .local _ .vmem, ⟨5, _⟩ => ⟨S64x64, .f32⟩
  | .local _ .vmem, ⟨6, _⟩ => ⟨S204x1, .f32⟩
  | .local _ .vmem, ⟨7, _⟩ => ⟨S1x1, .f32⟩
  | _, _ => ⟨S64x80x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_cst : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v1 : Ref sig .tc := ⟨.hbm, 53, rfl⟩
abbrev main_v2 : Ref sig .tc := ⟨.hbm, 54, rfl⟩
abbrev main_v3 : Ref sig .tc := ⟨.hbm, 55, rfl⟩
abbrev main_v4 : Ref sig .tc := ⟨.hbm, 56, rfl⟩
abbrev main_v5 : Ref sig .tc := ⟨.hbm, 57, rfl⟩
abbrev main_v6 : Ref sig .tc := ⟨.hbm, 58, rfl⟩
abbrev main_v7 : Ref sig .tc := ⟨.hbm, 59, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S204x80 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S204x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x80 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x80 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S204x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

class Facts₀ : Prop where
  bcast_S_S204 : S_.BroadcastsInDim S204 (![] : Fin 0 → Fin S204.rank)
  bcast_S204_S204x1_0 : S204.BroadcastsInDim S204x1 (![0] : Fin 1 → Fin S204x1.rank)
  bcast_S_S204x1 : S_.BroadcastsInDim S204x1 (![] : Fin 0 → Fin S204x1.rank)
  bcast_S1_S1x1_1 : S1.BroadcastsInDim S1x1 (![1] : Fin 1 → Fin S1x1.rank)
  bcast_S1x1_S204x1_0_1 : S1x1.BroadcastsInDim S204x1 (![0, 1] : Fin 2 → Fin S204x1.rank)
  reducesTo_S204x1_S204_d1 : S204x1.ReducesTo [1] S204
  h_S_ : 0 < S_.numel
  bcast_S204_S204x80_0 : S204.BroadcastsInDim S204x80 (![0] : Fin 1 → Fin S204x80.rank)
  bcast_S_S204x80 : S_.BroadcastsInDim S204x80 (![] : Fin 0 → Fin S204x80.rank)
  bcast_S204_S204x64_0 : S204.BroadcastsInDim S204x64 (![0] : Fin 1 → Fin S204x64.rank)
  bcast_S_S204x64 : S_.BroadcastsInDim S204x64 (![] : Fin 0 → Fin S204x64.rank)
  shapeCasts_S64x80x1_S64x80 : S64x80x1.ShapeCasts S64x80
  shapeCasts_S64x64x1_S64x64 : S64x64x1.ShapeCasts S64x64
  inb_S204x80_S204x80_0_0 : ∀ a, (![0, 0] : Fin 2 → Nat) a + S204x80.size a ≤ S204x80.size a
  h_S204x80 : 0 < S204x80.numel
  shapeCasts_S204x80_S204x80 : S204x80.ShapeCasts S204x80
  bitsLt_bf16_f32 : FTy.bits .bf16 < FTy.bits .f32
  inb_S204x64_S204x64_0_0 : ∀ a, (![0, 0] : Fin 2 → Nat) a + S204x64.size a ≤ S204x64.size a
  h_S204x64 : 0 < S204x64.numel
  shapeCasts_S204x64_S204x64 : S204x64.ShapeCasts S204x64
  inb_S64x80_S64x80_0_0 : ∀ a, (![0, 0] : Fin 2 → Nat) a + S64x80.size a ≤ S64x80.size a
  h_S64x80 : 0 < S64x80.numel
  shapeCasts_S64x80_S64x80 : S64x80.ShapeCasts S64x80
  inb_S64x64_S64x64_0_0 : ∀ a, (![0, 0] : Fin 2 → Nat) a + S64x64.size a ≤ S64x64.size a
  h_S64x64 : 0 < S64x64.numel
  shapeCasts_S64x64_S64x64 : S64x64.ShapeCasts S64x64
  transposes_S64x80_p1_0_S80x64 : S64x80.Transposes [1, 0] S80x64
  transposes_S64x64_p1_0_S64x64 : S64x64.Transposes [1, 0] S64x64
  inb_S204x1_S204x1_0_0 : ∀ a, (![0, 0] : Fin 2 → Nat) a + S204x1.size a ≤ S204x1.size a
  h_S204x1 : 0 < S204x1.numel
  broadcasts_S204x1_S204x64 : S204x1.Broadcasts S204x64
  reduces_S204x64_S204 : S204x64.Reduces [1] S204
  shapeCasts_S204_S204x1 : S204.ShapeCasts S204x1
  reduces_S204x1_S1 : S204x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S_ : S1x1.ShapeCasts S_
  gather_S107127x80_S204x1_S204x80_1_0_n_n_0_1_180_wf : GatherDims.WF S107127x80 S204x1 S204x80 [1] [0] [] [0] [] 1 ![1, 80]
  gather_S107127x64_S204x1_S204x64_1_0_n_n_0_1_164_wf : GatherDims.WF S107127x64 S204x1 S204x64 [1] [0] [] [0] [] 1 ![1, 64]
  dot_S204x80_S80x64_S204x64_1_0_0_1_n_n_wf : DotDims.WF S204x80 S80x64 S204x64 [1] [0] [0] [1] [] []
  dot_S204x64_S64x64_S204x64_1_0_0_1_n_n_wf : DotDims.WF S204x64 S64x64 S204x64 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S204x80.size a ≤ S204x80.size a
  hwx0_0 : ∀ i : grid0.Coords, EltTy.bits .f32 = 32 ∨ (Rect.block (s := S204x80) S204x80.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S204x64.size a ≤ S204x64.size a
  hwx0_1 : ∀ i : grid0.Coords, EltTy.bits .f32 = 32 ∨ (Rect.block (s := S204x64) S204x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x80.size a ≤ S64x80.size a
  hwx0_2 : ∀ i : grid0.Coords, EltTy.bits .f32 = 32 ∨ (Rect.block (s := S64x80) S64x80.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x80.size a ≤ S64x80.size a
  hwx0_4 : ∀ i : grid0.Coords, EltTy.bits .f32 = 32 ∨ (Rect.block (s := S64x80) S64x80.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S204x1.size a ≤ S204x1.size a
  hwx0_6 : ∀ i : grid0.Coords, EltTy.bits .f32 = 32 ∨ (Rect.block (s := S204x1) S204x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)

variable [Facts₀]

def gather_S107127x80_S204x1_S204x80_1_0_n_n_0_1_180 : GatherDims S107127x80 S204x1 S204x80 where
  offsetDims := [1]
  collapsedSliceDims := [0]
  operandBatchingDims := []
  startIndicesBatchingDims := []
  startIndexMap := [0]
  indexVectorDim := 1
  sliceSizes := ![1, 80]
  wf := gather_S107127x80_S204x1_S204x80_1_0_n_n_0_1_180_wf
def gather_S107127x64_S204x1_S204x64_1_0_n_n_0_1_164 : GatherDims S107127x64 S204x1 S204x64 where
  offsetDims := [1]
  collapsedSliceDims := [0]
  operandBatchingDims := []
  startIndicesBatchingDims := []
  startIndexMap := [0]
  indexVectorDim := 1
  sliceSizes := ![1, 64]
  wf := gather_S107127x64_S204x1_S204x64_1_0_n_n_0_1_164_wf
def dot_S204x80_S80x64_S204x64_1_0_0_1_n_n : DotDims S204x80 S80x64 S204x64 where
  lhsContracting := [1]
  rhsContracting := [0]
  lhsNonContracting := [0]
  rhsNonContracting := [1]
  lhsBatch := []
  rhsBatch := []
  wf := dot_S204x80_S80x64_S204x64_1_0_0_1_n_n_wf
def dot_S204x64_S64x64_S204x64_1_0_0_1_n_n : DotDims S204x64 S64x64 S204x64 where
  lhsContracting := [1]
  rhsContracting := [0]
  lhsNonContracting := [0]
  rhsNonContracting := [1]
  lhsBatch := []
  rhsBatch := []
  wf := dot_S204x64_S64x64_S204x64_1_0_0_1_n_n_wf

abbrev win0_0 : Pipeline.Window sig grid0 :=
  Pipeline.Window.ofSpec (Memref.whole main_v0) S204x80.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S204x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S64x80.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S64x80.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_cst) S204x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x1.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S64x80x1 : Shape := ⟨3, ![64, 80, 1]⟩
abbrev S64x64x1 : Shape := ⟨3, ![64, 64, 1]⟩
abbrev S107127x80 : Shape := ⟨2, ![107127, 80]⟩
abbrev S107127x64 : Shape := ⟨2, ![107127, 64]⟩
abbrev S68 : Shape := ⟨1, ![68]⟩
abbrev S1x68x1 : Shape := ⟨3, ![1, 68, 1]⟩
abbrev S64x80 : Shape := ⟨2, ![64, 80]⟩
abbrev S64x107127 : Shape := ⟨2, ![64, 107127]⟩
abbrev S64x64 : Shape := ⟨2, ![64, 64]⟩
abbrev S64x35709x3 : Shape := ⟨3, ![64, 35709, 3]⟩
abbrev S_ : Shape := ⟨0, ![]⟩
abbrev S68x1 : Shape := ⟨2, ![68, 1]⟩
abbrev S64x68x3 : Shape := ⟨3, ![64, 68, 3]⟩

abbrev nBuf : Space → Nat
  | .hbm => 47
  | .vmem => 0
  | .smem => 0
  | _ => 0

abbrev bufTy : (tb : Table) → Fin (tcTables nBuf tb) → BufTy
  | .hbm, ⟨0, _⟩ => ⟨S64x80x1, .f32⟩
  | .hbm, ⟨1, _⟩ => ⟨S64x64x1, .f32⟩
  | .hbm, ⟨2, _⟩ => ⟨S64x80x1, .f32⟩
  | .hbm, ⟨3, _⟩ => ⟨S64x64x1, .f32⟩
  | .hbm, ⟨4, _⟩ => ⟨S107127x80, .f32⟩
  | .hbm, ⟨5, _⟩ => ⟨S107127x64, .f32⟩
  | .hbm, ⟨6, _⟩ => ⟨S68, .i32⟩
  | .hbm, ⟨7, _⟩ => ⟨S68, .f32⟩
  | .hbm, ⟨8, _⟩ => ⟨S1x68x1, .f32⟩
  | .hbm, ⟨9, _⟩ => ⟨S64x80, .f32⟩
  | .hbm, ⟨10, _⟩ => ⟨S64x107127, .f32⟩
  | .hbm, ⟨11, _⟩ => ⟨S64x64, .f32⟩
  | .hbm, ⟨12, _⟩ => ⟨S64x107127, .f32⟩
  | .hbm, ⟨13, _⟩ => ⟨S64x107127, .f32⟩
  | .hbm, ⟨14, _⟩ => ⟨S64x35709x3, .f32⟩
  | .hbm, ⟨15, _⟩ => ⟨S_, .i32⟩
  | .hbm, ⟨16, _⟩ => ⟨S68, .i32⟩
  | .hbm, ⟨17, _⟩ => ⟨S68, .i1⟩
  | .hbm, ⟨18, _⟩ => ⟨S_, .i32⟩
  | .hbm, ⟨19, _⟩ => ⟨S68, .i32⟩
  | .hbm, ⟨20, _⟩ => ⟨S68, .i32⟩
  | .hbm, ⟨21, _⟩ => ⟨S68, .i32⟩
  | .hbm, ⟨22, _⟩ => ⟨S68x1, .i32⟩
  | .hbm, ⟨23, _⟩ => ⟨S64x68x3, .f32⟩
  | .hbm, ⟨24, _⟩ => ⟨S64x80, .f32⟩
  | .hbm, ⟨25, _⟩ => ⟨S64x107127, .f32⟩
  | .hbm, ⟨26, _⟩ => ⟨S64x64, .f32⟩
  | .hbm, ⟨27, _⟩ => ⟨S64x107127, .f32⟩
  | .hbm, ⟨28, _⟩ => ⟨S64x107127, .f32⟩
  | .hbm, ⟨29, _⟩ => ⟨S64x35709x3, .f32⟩
  | .hbm, ⟨30, _⟩ => ⟨S_, .i32⟩
  | .hbm, ⟨31, _⟩ => ⟨S68, .i32⟩
  | .hbm, ⟨32, _⟩ => ⟨S68, .i1⟩
  | .hbm, ⟨33, _⟩ => ⟨S_, .i32⟩
  | .hbm, ⟨34, _⟩ => ⟨S68, .i32⟩
  | .hbm, ⟨35, _⟩ => ⟨S68, .i32⟩
  | .hbm, ⟨36, _⟩ => ⟨S68, .i32⟩
  | .hbm, ⟨37, _⟩ => ⟨S68x1, .i32⟩
  | .hbm, ⟨38, _⟩ => ⟨S64x68x3, .f32⟩
  | .hbm, ⟨39, _⟩ => ⟨S64x68x3, .f32⟩
  | .hbm, ⟨40, _⟩ => ⟨S64x68x3, .f32⟩
  | .hbm, ⟨41, _⟩ => ⟨S64x68x3, .f32⟩
  | .hbm, ⟨42, _⟩ => ⟨S64x68x3, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S64x80x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩

abbrev nD : Nat := 1
abbrev τ : Topo := Topo.v7x

variable {F : FTy → Type} [FloatOps F]

class Facts₀ : Prop where
  bcast_S68_S1x68x1_1 : S68.BroadcastsInDim S1x68x1 (![1] : Fin 1 → Fin S1x68x1.rank)
  shapeCasts_S64x80x1_S64x80 : S64x80x1.ShapeCasts S64x80
  shapeCasts_S64x64x1_S64x64 : S64x64x1.ShapeCasts S64x64
  shapeCasts_S64x107127_S64x35709x3 : S64x107127.ShapeCasts S64x35709x3
  bcast_S_S68 : S_.BroadcastsInDim S68 (![] : Fin 0 → Fin S68.rank)
  bcast_S68_S68x1_0 : S68.BroadcastsInDim S68x1 (![0] : Fin 1 → Fin S68x1.rank)
  bcast_S1x68x1_S64x68x3_0_1_2 : S1x68x1.BroadcastsInDim S64x68x3 (![0, 1, 2] : Fin 3 → Fin S64x68x3.rank)
  reducesTo_S64x68x3_S_d0_1_2 : S64x68x3.ReducesTo [0, 1, 2] S_
  h_S_ : 0 < S_.numel
  dot_S64x80_S107127x80_S64x107127_1_1_0_0_n_n_wf : DotDims.WF S64x80 S107127x80 S64x107127 [1] [1] [0] [0] [] []
  dot_S64x64_S107127x64_S64x107127_1_1_0_0_n_n_wf : DotDims.WF S64x64 S107127x64 S64x107127 [1] [1] [0] [0] [] []
  gather_S64x35709x3_S68x1_S64x68x3_02_1_n_n_1_1_6413_wf : GatherDims.WF S64x35709x3 S68x1 S64x68x3 [0, 2] [1] [] [1] [] 1 ![64, 1, 3]

variable [Facts₀]

def dot_S64x80_S107127x80_S64x107127_1_1_0_0_n_n : DotDims S64x80 S107127x80 S64x107127 where
  lhsContracting := [1]
  rhsContracting := [1]
  lhsNonContracting := [0]
  rhsNonContracting := [0]
  lhsBatch := []
  rhsBatch := []
  wf := dot_S64x80_S107127x80_S64x107127_1_1_0_0_n_n_wf
def dot_S64x64_S107127x64_S64x107127_1_1_0_0_n_n : DotDims S64x64 S107127x64 S64x107127 where
  lhsContracting := [1]
  rhsContracting := [1]
  lhsNonContracting := [0]
  rhsNonContracting := [0]
  lhsBatch := []
  rhsBatch := []
  wf := dot_S64x64_S107127x64_S64x107127_1_1_0_0_n_n_wf
def gather_S64x35709x3_S68x1_S64x68x3_02_1_n_n_1_1_6413 : GatherDims S64x35709x3 S68x1 S64x68x3 where
  offsetDims := [0, 2]
  collapsedSliceDims := [1]
  operandBatchingDims := []
  startIndicesBatchingDims := []
  startIndexMap := [1]
  indexVectorDim := 1
  sliceSizes := ![64, 1, 3]
  wf := gather_S64x35709x3_S68x1_S64x68x3_02_1_n_n_1_1_6413_wf

class Facts : Prop extends Facts₀ where

variable [Facts]
-- ==== Proof.Spec.lean ====
/-
  The landmark loss both programs compute, as functions of the six argument arrays on the extended reals,
  in the two arrangements the programs use, and the law that joins them.

  Notation.  A : [107127, 80] and E : [107127, 64] are the two bases; a, a' : [64, 80, 1] and d, d' : [64, 64, 1]
  are the coefficient batches.  The geometry of batch element b at basis row v is
      g(b, v) = sum_k A(v,k) a(b,k) + sum_k E(v,k) d(b,k).
  The loss is  ( sum over the 204 selected rows r and the 64 batch elements b of
      w(r) * (g(b, rows r) - g'(b, rows r))^2 ) / 68.
  One program selects the 204 rows of the bases first (a table rows : Fin 204 -> Fin 107127 and a weight per row);
  the other forms every g(b, v), regroups v as (vertex, coordinate) = (v / 3, v % 3), selects 68 vertices
  (a table lm : Fin 68 -> Fin 35709) and weights each vertex.  With rows (3 l + c) = 3 lm(l) + c and
  w (3 l + c) = w68 (l) the two are one number: only commutativity and associativity of + and * on the
  extended reals are used (a sum re-indexed along (l, c) |-> 3 l + c, two sums exchanged, factors swapped),
  so nothing needs the inputs to be finite.
-/
import Idealize.ShloMosaic.PureOps.Ideal
import Idealize.ShloMosaic.PureOps.Ideal.Laws
import Idealize.ShloMosaic.Lib.ValueIdx

noncomputable section

open scoped BigOperators

namespace Cert.GeoLoss

open Idealize.ShloMosaic Idealize.ShloMosaic.ValueIdx

abbrev BaseA := (⟨2, ![107127, 80]⟩ : Shape).Idx → EReal
abbrev BaseE := (⟨2, ![107127, 64]⟩ : Shape).Idx → EReal
abbrev CoefA := (⟨3, ![64, 80, 1]⟩ : Shape).Idx → EReal
abbrev CoefE := (⟨3, ![64, 64, 1]⟩ : Shape).Idx → EReal

/-- Basis row `v` against coefficient row `b`, basis factor first (rows times columns). -/
def geo (A : BaseA) (E : BaseE) (a : CoefA) (d : CoefE) (v : Fin 107127) (b : Fin 64) : EReal :=
  (∑ k : Fin 80, A (ix2 v k) * a (ix3 b k (0 : Fin 1))) + ∑ k : Fin 64, E (ix2 v k) * d (ix3 b k (0 : Fin 1))

/-- The same with the coefficient factor first (coefficient rows against basis rows). -/
def geoRef (A : BaseA) (E : BaseE) (a : CoefA) (d : CoefE) (b : Fin 64) (v : Fin 107127) : EReal :=
  (∑ k : Fin 80, a (ix3 b k (0 : Fin 1)) * A (ix2 v k)) + ∑ k : Fin 64, d (ix3 b k (0 : Fin 1)) * E (ix2 v k)

theorem geoRef_eq (A : BaseA) (E : BaseE) (a : CoefA) (d : CoefE) (b : Fin 64) (v : Fin 107127) :
    geoRef A E a d b v = geo A E a d v b := by
  unfold geoRef geo
  congr 1
  · exact Finset.sum_congr rfl fun k _ => mul_comm _ _
  · exact Finset.sum_congr rfl fun k _ => mul_comm _ _

/-- The divisor both programs write: the word of 68.0. -/
abbrev c68 : EReal := Ideal.ofBits .f32 0x42880000#32

/-- Rows selected first: the sum over the 204 rows of the sum over the batch, divided by 68. -/
def loss (rows : Fin 204 → Fin 107127) (w : Fin 204 → EReal) (a : CoefA) (d : CoefE) (a' : CoefA) (d' : CoefE)
    (A : BaseA) (E : BaseE) : EReal :=
  Ideal.div (∑ r : Fin 204, ∑ b : Fin 64,
      w r * ((geo A E a d (rows r) b - geo A E a' d' (rows r) b) * (geo A E a d (rows r) b - geo A E a' d' (rows r) b))) c68

/-- Row `3 l + c` of the bases: coordinate `c` of vertex `lm l`. -/
def vtx (lm : Fin 68 → Fin 35709) (l : Fin 68) (c : Fin 3) : Fin 107127 :=
  ⟨3 * (lm l).val + c.val, by have := (lm l).isLt; have := c.isLt; omega⟩

/-- Vertices selected last: the sum from the zero word over (batch, vertex, coordinate), divided by 68. -/
def refLoss (lm : Fin 68 → Fin 35709) (w : Fin 68 → EReal) (a : CoefA) (d : CoefE) (a' : CoefA) (d' : CoefE)
    (A : BaseA) (E : BaseE) : EReal :=
  Ideal.div (Ideal.ofBits .f32 0x00000000#32 + ∑ b : Fin 64, ∑ l : Fin 68, ∑ c : Fin 3,
      w l * ((geoRef A E a d b (vtx lm l c) - geoRef A E a' d' b (vtx lm l c))
        * (geoRef A E a d b (vtx lm l c) - geoRef A E a' d' b (vtx lm l c)))) c68

/-- THE LAW: when row `3 l + c` of the first table is coordinate `c` of vertex `l` of the second and carries that
    vertex's weight, the two arrangements are one number. -/
theorem refLoss_eq_loss (rows : Fin 204 → Fin 107127) (w : Fin 204 → EReal) (lm : Fin 68 → Fin 35709) (w68 : Fin 68 → EReal)
    (hrows : ∀ (l : Fin 68) (c : Fin 3), rows (finProdFinEquiv (l, c)) = vtx lm l c)
    (hw : ∀ (l : Fin 68) (c : Fin 3), w (finProdFinEquiv (l, c)) = w68 l)
    (a : CoefA) (d : CoefE) (a' : CoefA) (d' : CoefE) (A : BaseA) (E : BaseE) :
    refLoss lm w68 a d a' d' A E = loss rows w a d a' d' A E := by
  unfold refLoss loss
  rw [Ideal.ofBits_zero_f32, zero_add]
  congr 1
  rw [Finset.sum_comm]
  rw [← Equiv.sum_comp (finProdFinEquiv (m := 68) (n := 3)) , Fintype.sum_prod_type]
  refine Finset.sum_congr rfl fun l _ => ?_
  rw [Finset.sum_comm]
  refine Finset.sum_congr rfl fun c _ => ?_
  refine Finset.sum_congr rfl fun b _ => ?_
  rw [hrows l c, hw l c, geoRef_eq, geoRef_eq]

end Cert.GeoLoss

end
-- ==== Proof.Tables.lean ====
/-
  The two programs' literal tables agree.

  One program carries a table of 204 base rows and a column of 204 weights, the other a table of 68 vertices and
  68 weights.  Row 3 l + c of the first table is 3 times vertex l of the second plus c (the three coordinates of a
  vertex are consecutive rows of a base), and it carries vertex l's weight.  Both facts are checked entry by entry.
-/
import proofs.«113782_j4947802325291_2_alg».proof.KernelIdeal
import proofs.«113782_j4947802325291_2_alg».proof.ReferenceIdeal
import Mathlib.Logic.Equiv.Fin.Basic

namespace Cert.Tables

/-- Row `3 l + c` of the row table is coordinate `c` of vertex `l` of the vertex table. -/
theorem rows_tab : ∀ (l : Fin 68) (c : Fin 3),
    (Cert.KernelIdeal.lit0 (finProdFinEquiv (l, c))).toNat = 3 * (Cert.ReferenceIdeal.lit0 l).toNat + c.val := by
  decide +kernel

/-- Row `3 l + c` carries vertex `l`'s weight. -/
theorem w_tab : ∀ (l : Fin 68) (c : Fin 3),
    Cert.KernelIdeal.lit1 (finProdFinEquiv (l, c)) = Cert.ReferenceIdeal.lit1 l := by
  decide +kernel

end Cert.Tables
-- ==== Proof.LibPlainDot.lean ====
/-
  A plain matrix product's contraction, re-indexed by the contracted coordinate.

  A contraction record over `[M, K] × [K, N] → [M, N]` with ONE contracted axis sums over indices of a
  rank-one shape; what a value proof wants is the sum over `k : Fin K` of the left operand at `(row, k)`
  times the right at `(k, column)`. The record enters only through six facts, each decidable at a literal
  record: its contraction shape has rank one and extent `K`, and the operand index at an output index and a
  contraction index has the expected coordinates.
-/
import Idealize.ShloMosaic.PureOps.Ideal.Laws
import Idealize.ShloMosaic.Lib.ValueIdx

noncomputable section

namespace Cert.Lib.PlainDot

open Idealize.ShloMosaic Idealize.ShloMosaic.ValueIdx

/-- The sum over a one-axis contraction, as the sum over `k : Fin K` of left `(j 0, k)` times right `(k, j 1)`. -/
theorem sum_rows_cols {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (l : (⟨2, ![M, K]⟩ : Shape).Idx → EReal) (r : (⟨2, ![K, N]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact hl0 _ _
    | ⟨1, _⟩ => exact (hl1 _ _).trans hk)
  have er : D.rhsIdx j ((contrEquiv1 D K hr hs).symm k) = ix2 k (j 1) := funext fun a => Fin.ext (by
    match a with
    | ⟨0, _⟩ => exact (hr0 _ _).trans hk
    | ⟨1, _⟩ => exact hr1 _ _)
  exact congrArg₂ (· * ·) (congrArg l el) (congrArg r er)

end Cert.Lib.PlainDot

end
-- ==== Proof.LibColumnSpread.lean ====
/-
  One column spread over many.

  A kernel that keeps a per-row scalar as a column `[a, 1]` and multiplies a whole `[a, b]` block by it
  broadcasts the column along the second axis. Read at `(p, c)` the broadcast is the column's entry of row `p`,
  whatever the column `c`. (The library has the row form `[1, b] → [a, b]`; this is the column form.)
  Imports only the Idealize library.
-/
import Idealize.ShloMosaic.Lib.Pipeline.Value
import Idealize.ShloMosaic.Lib.ValueIdx

noncomputable section

namespace Cert.Lib.ColumnSpread

open Idealize.ShloMosaic Idealize.ShloMosaic.ValueIdx

/-- A column `[a, 1]` broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.ColumnSpread

end
-- ==== Proof.KBody.lean ====
/-
  What the kernel's body stores, as one number.

  The body loads seven whole blocks: the 204 selected rows of the two bases (L80 : [204, 80], L64 : [204, 64]),
  the four coefficient matrices (a, a' : [64, 80], d, d' : [64, 64]) and a weight column (w : [204, 1]).
  Its four matrix products each contract the rows of a base block against the rows of a coefficient matrix
  (the second operand is transposed first), so entry (r, b) of a product is sum_k L(r, k) * a(b, k); a change of
  float format is the identity at the exact values.  The difference of the two geometries is squared, each row is
  multiplied by its weight, the 64 lanes of a row are added, then the 204 rows, and the one number is divided
  by 68.
-/
import proofs.«113782_j4947802325291_2_alg».proof.Proof.Gen.KernelIdeal.Skeleton
import proofs.«113782_j4947802325291_2_alg».proof.Proof.LibPlainDot
import proofs.«113782_j4947802325291_2_alg».proof.Proof.LibColumnSpread
import proofs.«113782_j4947802325291_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- Entry (r, b) of a base block against a coefficient matrix, rows against rows, both bases added. -/
def blockGeo (L80 : FVec Ideal S204x80 .f32) (L64 : FVec Ideal S204x64 .f32) (a : FVec Ideal S64x80 .f32)
    (d : FVec Ideal S64x64 .f32) (r : Fin 204) (b : Fin 64) : EReal :=
  (∑ k : Fin 80, L80 (ix2 r k) * a (ix2 b k)) + ∑ k : Fin 64, L64 (ix2 r k) * d (ix2 b k)

/-- The weighted sum of squared differences over rows and lanes, divided by 68. -/
def blockLoss (L80 : FVec Ideal S204x80 .f32) (L64 : FVec Ideal S204x64 .f32) (a : FVec Ideal S64x80 .f32)
    (d : FVec Ideal S64x64 .f32) (a' : FVec Ideal S64x80 .f32) (d' : FVec Ideal S64x64 .f32)
    (w : FVec Ideal S204x1 .f32) : EReal :=
  Ideal.div (∑ r : Fin 204, ∑ b : Fin 64,
      w (ix2 r (0 : Fin 1)) * ((blockGeo L80 L64 a d r b - blockGeo L80 L64 a' d' r b)
        * (blockGeo L80 L64 a d r b - blockGeo L80 L64 a' d' r b))) Cert.GeoLoss.c68

/-- A product of a [204, 80] block with the transpose of a [64, 80] matrix, into the zero accumulator, at (r, b). -/
theorem mm80 (l : FVec Ideal S204x80 .bf16) (a : FVec Ideal S64x80 .bf16) (r : Fin 204) (b : Fin 64) :
    matmul dot_S204x80_S80x64_S204x64_1_0_0_1_n_n none l (transpose S80x64 [1, 0] a transposes_S64x80_p1_0_S80x64)
        (constant S204x64 .f32 0x00000000#32) (ix2 r b)
      = ∑ k : Fin 80, l (ix2 r k) * a (ix2 b k) := by
  refine (Ideal.matmul_constant_zero_apply dot_S204x80_S80x64_S204x64_1_0_0_1_n_n none l
    (transpose S80x64 [1, 0] a transposes_S64x80_p1_0_S80x64) (ix2 r b)).trans ?_
  refine (Cert.Lib.PlainDot.sum_rows_cols dot_S204x80_S80x64_S204x64_1_0_0_1_n_n rfl rfl (fun _ _ => rfl) (fun _ _ => rfl)
    (fun _ _ => rfl) (fun _ _ => rfl) l (transpose S80x64 [1, 0] a transposes_S64x80_p1_0_S80x64) (ix2 r b)).trans ?_
  refine Finset.sum_congr rfl fun k _ => ?_
  show l (ix2 r k) * transpose S80x64 [1, 0] a transposes_S64x80_p1_0_S80x64 (ix2 k b) = _
  rw [transpose_ix2_apply]

/-- The same for a [204, 64] block against the transpose of a [64, 64] matrix. -/
theorem mm64 (l : FVec Ideal S204x64 .bf16) (d : FVec Ideal S64x64 .bf16) (r : Fin 204) (b : Fin 64) :
    matmul dot_S204x64_S64x64_S204x64_1_0_0_1_n_n none l (transpose S64x64 [1, 0] d transposes_S64x64_p1_0_S64x64)
        (constant S204x64 .f32 0x00000000#32) (ix2 r b)
      = ∑ k : Fin 64, l (ix2 r k) * d (ix2 b k) := by
  refine (Ideal.matmul_constant_zero_apply dot_S204x64_S64x64_S204x64_1_0_0_1_n_n none l
    (transpose S64x64 [1, 0] d transposes_S64x64_p1_0_S64x64) (ix2 r b)).trans ?_
  refine (Cert.Lib.PlainDot.sum_rows_cols dot_S204x64_S64x64_S204x64_1_0_0_1_n_n rfl rfl (fun _ _ => rfl) (fun _ _ => rfl)
    (fun _ _ => rfl) (fun _ _ => rfl) l (transpose S64x64 [1, 0] d transposes_S64x64_p1_0_S64x64) (ix2 r b)).trans ?_
  refine Finset.sum_congr rfl fun k _ => ?_
  show l (ix2 r k) * transpose S64x64 [1, 0] d transposes_S64x64_p1_0_S64x64 (ix2 k b) = _
  rw [transpose_ix2_apply]

/-- A vector [a] kept as a column [a, 1] reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- One geometry of the body at (r, b): two products into zero, added; the format changes and the casts of a
    block to its own shape are the identity. -/
theorem geo_apply (x0 : Vec Ideal S204x80 .f32) (x1 : Vec Ideal S204x64 .f32) (a : Vec Ideal S64x80 .f32)
    (d : Vec Ideal S64x64 .f32) (r : Fin 204) (b : Fin 64) :
    addf
      (matmul dot_S204x80_S80x64_S204x64_1_0_0_1_n_n none
        (truncf .bf16 (shapeCast S204x80 x0 shapeCasts_S204x80_S204x80 : FVec Ideal S204x80 .f32) bitsLt_bf16_f32)
        (transpose S80x64 [1, 0] (truncf .bf16 (shapeCast S64x80 a shapeCasts_S64x80_S64x80 : FVec Ideal S64x80 .f32) bitsLt_bf16_f32)
          transposes_S64x80_p1_0_S80x64) (constant S204x64 .f32 0x00000000#32))
      (matmul dot_S204x64_S64x64_S204x64_1_0_0_1_n_n none
        (truncf .bf16 (shapeCast S204x64 x1 shapeCasts_S204x64_S204x64 : FVec Ideal S204x64 .f32) bitsLt_bf16_f32)
        (transpose S64x64 [1, 0] (truncf .bf16 (shapeCast S64x64 d shapeCasts_S64x64_S64x64 : FVec Ideal S64x64 .f32) bitsLt_bf16_f32)
          transposes_S64x64_p1_0_S64x64) (constant S204x64 .f32 0x00000000#32)) (ix2 r b)
      = blockGeo x0 x1 a d r b := by
  rw [addf_apply, mm80, mm64]
  simp only [truncf_apply, shapeCast_self]
  rfl

/-- The lanes of a row added from the zero word: at row r, the sum over the 64 lanes. -/
theorem rowSum_apply (src : FVec Ideal S204x64 .f32) (r : Fin 204) :
    multiReduction .add [1] S204 src 0x00000000#32 reduces_S204x64_S204 (.inl rfl) rfl (ix1 r)
      = ∑ b : Fin 64, src (ix2 r b) := by
  refine (Ideal.multiReduction_add_single src 0x00000000#32 reduces_S204x64_S204 (.inl rfl) rfl (ix1 r)).trans ?_
  refine Finset.sum_congr rfl fun (b : Fin 64) _ => congrArg src ?_
  exact funext fun ax => Fin.ext (by
    match ax with
    | ⟨0, _⟩ => rfl
    | ⟨1, _⟩ => rfl)

/-- The rows of a column added from the zero word: the sum over the 204 rows. -/
theorem colSum_apply (src : FVec Ideal S204x1 .f32) (v : Fin 1) :
    multiReduction .add [0] S1 src 0x00000000#32 reduces_S204x1_S1 (.inl rfl) rfl (ix1 v)
      = ∑ r : Fin 204, src (ix2 r v) := by
  refine (Ideal.multiReduction_add_single src 0x00000000#32 reduces_S204x1_S1 (.inl rfl) rfl (ix1 v)).trans ?_
  refine Finset.sum_congr rfl fun (r : Fin 204) _ => congrArg src ?_
  exact funext fun ax => Fin.ext (by
    match ax with
    | ⟨0, _⟩ => rfl
    | ⟨1, _⟩ => rfl)

/-- Lanes, then rows, with the two casts that keep the reduced axis as a unit axis: the sum over every entry. -/
theorem total_apply (src : FVec Ideal S204x64 .f32) (u v : Fin 1) :
    shapeCast S1x1 (multiReduction .add [0] S1
        (shapeCast S204x1 (multiReduction .add [1] S204 src 0x00000000#32 reduces_S204x64_S204 (.inl rfl) rfl) shapeCasts_S204_S204x1)
        0x00000000#32 reduces_S204x1_S1 (.inl rfl) rfl) shapeCasts_S1_S1x1 (ix2 u v)
      = ∑ r : Fin 204, ∑ b : Fin 64, src (ix2 r b) := by
  refine (shapeCast_a_1a_apply _ _ u v).trans ?_
  refine (colSum_apply _ v).trans ?_
  refine Finset.sum_congr rfl fun r _ => ?_
  refine (shapeCast_a_a1_apply _ _ r v).trans ?_
  exact rowSum_apply src r

/-- THE BODY'S STORED VALUE at its one index. -/
theorem pay_apply (x0 : Vec Ideal S204x80 .f32) (x1 : Vec Ideal S204x64 .f32) (x2 : Vec Ideal S64x80 .f32)
    (x3 : Vec Ideal S64x64 .f32) (x4 : Vec Ideal S64x80 .f32) (x5 : Vec Ideal S64x64 .f32) (x6 : Vec Ideal S204x1 .f32)
    (u v : Fin 1) :
    k0_pay1 (k0_pay2 x0 x1 x2 x3 x4 x5 x6) (k0_pay3 (F := Ideal)) (ix2 u v) = blockLoss x0 x1 x2 x3 x4 x5 x6 := by
  unfold k0_pay1 k0_pay3 blockLoss
  dsimp only
  rw [divf_apply]
  refine congrArg₂ Ideal.div ?_ rfl
  unfold k0_pay2
  dsimp only
  refine (total_apply _ u v).trans ?_
  refine Finset.sum_congr rfl fun r _ => Finset.sum_congr rfl fun b _ => ?_
  rw [mulf_apply, Cert.Lib.ColumnSpread.broadcastTo_a1_ab_apply, mulf_apply, subf_apply, geo_apply, geo_apply]

/-- When the loaded base blocks are the selected rows of two bases and the loaded coefficient matrices are two
    coefficient arrays viewed as matrices, a geometry of the blocks is the geometry of the arrays at the selected row. -/
theorem blockGeo_congr (L80 : FVec Ideal S204x80 .f32) (L64 : FVec Ideal S204x64 .f32) (a : FVec Ideal S64x80 .f32)
    (d : FVec Ideal S64x64 .f32) (rows : Fin 204 → Fin 107127) (A : Cert.GeoLoss.BaseA) (E : Cert.GeoLoss.BaseE)
    (a3 : Cert.GeoLoss.CoefA) (d3 : Cert.GeoLoss.CoefE)
    (h0 : ∀ r k, L80 (ix2 r k) = A (ix2 (rows r) k)) (h1 : ∀ r k, L64 (ix2 r k) = E (ix2 (rows r) k))
    (h2 : ∀ b k, a (ix2 b k) = a3 (ix3 b k (0 : Fin 1))) (h3 : ∀ b k, d (ix2 b k) = d3 (ix3 b k (0 : Fin 1)))
    (r : Fin 204) (b : Fin 64) :
    blockGeo L80 L64 a d r b = Cert.GeoLoss.geo A E a3 d3 (rows r) b := by
  unfold blockGeo Cert.GeoLoss.geo
  congr 1
  · exact Finset.sum_congr rfl fun k _ => by rw [h0, h2]
  · exact Finset.sum_congr rfl fun k _ => by rw [h1, h3]

/-- So the body's number at such blocks, with the weight column a table of weights, is the loss with the rows
    selected first. -/
theorem blockLoss_congr (L80 : FVec Ideal S204x80 .f32) (L64 : FVec Ideal S204x64 .f32) (a : FVec Ideal S64x80 .f32)
    (d : FVec Ideal S64x64 .f32) (a' : FVec Ideal S64x80 .f32) (d' : FVec Ideal S64x64 .f32) (w : FVec Ideal S204x1 .f32)
    (rows : Fin 204 → Fin 107127) (wt : Fin 204 → EReal) (A : Cert.GeoLoss.BaseA) (E : Cert.GeoLoss.BaseE)
    (a3 : Cert.GeoLoss.CoefA) (d3 : Cert.GeoLoss.CoefE) (a3' : Cert.GeoLoss.CoefA) (d3' : Cert.GeoLoss.CoefE)
    (h0 : ∀ r k, L80 (ix2 r k) = A (ix2 (rows r) k)) (h1 : ∀ r k, L64 (ix2 r k) = E (ix2 (rows r) k))
    (h2 : ∀ b k, a (ix2 b k) = a3 (ix3 b k (0 : Fin 1))) (h3 : ∀ b k, d (ix2 b k) = d3 (ix3 b k (0 : Fin 1)))
    (h4 : ∀ b k, a' (ix2 b k) = a3' (ix3 b k (0 : Fin 1))) (h5 : ∀ b k, d' (ix2 b k) = d3' (ix3 b k (0 : Fin 1)))
    (h6 : ∀ r, w (ix2 r (0 : Fin 1)) = wt r) :
    blockLoss L80 L64 a d a' d' w = Cert.GeoLoss.loss rows wt a3 d3 a3' d3' A E := by
  unfold blockLoss Cert.GeoLoss.loss
  refine congrArg₂ Ideal.div ?_ rfl
  refine Finset.sum_congr rfl fun r _ => Finset.sum_congr rfl fun b _ => ?_
  rw [blockGeo_congr L80 L64 a d rows A E a3 d3 h0 h1 h2 h3, blockGeo_congr L80 L64 a' d' rows A E a3' d3' h0 h1 h4 h5, h6]

end Cert.KernelIdeal.Body

end
-- ==== Proof.LibRowGatherScatter.lean ====
/-
  Whole rows gathered, and whole rows added at scattered places.

  `x[idx]` for a table `x : [N, C]` and one start word per result row (`idx : [E, 1]`) is a gather with the row
  axis collapsed: result `(e, c)` is the table at `(ρ e, c)`, where `ρ e` is row `e`'s start word read as a signed
  integer and clamped into `0 … N − 1` (`gather_rows_apply`).

  `x.at[idx].add(u)` for updates `u : [E, C]` is a scatter whose window is a whole row: update `(e, c)` lands at
  `(z, c)` when row `e`'s start word, read as a signed integer `z` and NOT clamped, is a row of the table, and is
  dropped otherwise (`resultIdx?_iff`). At the exact values the result at `(n, c)` is therefore the table's entry
  plus the sum over ALL update rows `e` of `u (e, c)` when `e`'s start word is `n` and of `0` otherwise
  (`hostScatterAdd_rows_apply`): a segment sum, written with an indicator so that no index set depends on the data.
  The dimension numbers enter as hypotheses on the record's fields, so one lemma serves every program's copy of it.
-/
import Idealize.ShloMosaic.PureOps.Ideal
import Idealize.ShloMosaic.Lib.ValueIdx

noncomputable section

open scoped BigOperators

namespace Cert.Lib.RowGatherScatter

open Idealize.ShloMosaic Idealize.ShloMosaic.ValueIdx

variable {N E C : ℕ}

/-- Where row `e`'s start word sits in the `[E, 1]` array of start indices. -/
abbrev startAt (e : Fin E) : (⟨2, ![E, 1]⟩ : Shape).Idx := ix2 e ⟨0, Nat.one_pos⟩

private theorem one_not_mem : (1 : Fin 2) ∉ ([0] : List (Fin 2)) := by decide

private theorem mem_kept (s : Shape) (l : List (Fin s.rank)) (a : Fin s.rank) : a ∈ s.kept l ↔ a ∉ l := by
  simp [Shape.kept, List.mem_filter, List.mem_finRange]

/-! ## The scatter of rows -/

section Scatter

variable (d : ScatterDims ⟨2, ![N, C]⟩ ⟨2, ![E, 1]⟩ ⟨2, ![E, C]⟩)

theorem start_row (h3 : d.scatterDimsToOperandDims = [0]) (h1 : d.updateWindowDims = [1]) (h4 : d.indexVectorDim = 1)
    {w : ℕ} (idx : IVec ⟨2, ![E, 1]⟩ w) (e : Fin E) (c : Fin C) :
    d.start (ix2 e c) idx 0 = (idx (startAt e)).toInt := by
  obtain ⟨uw, iw, sd, iv, wf⟩ := d
  dsimp only at h1 h3 h4
  subst h1 h3 h4
  unfold ScatterDims.start
  rw [dif_pos (List.mem_singleton.mpr rfl)]
  congr 2
  funext b
  refine Fin.ext ?_
  match b with
  | ⟨0, _⟩ => rfl
  | ⟨1, _⟩ => rfl

theorem start_col (h3 : d.scatterDimsToOperandDims = [0]) {w : ℕ} (idx : IVec ⟨2, ![E, 1]⟩ w)
    (j : (⟨2, ![E, C]⟩ : Shape).Idx) : d.start j idx 1 = 0 := by
  unfold ScatterDims.start
  rw [dif_neg (by rw [h3]; exact one_not_mem)]

theorem window_row (h2 : d.insertedWindowDims = [0]) (j : (⟨2, ![E, C]⟩ : Shape).Idx) : d.window j 0 = 0 := by
  unfold ScatterDims.window
  rw [dif_neg (by rw [ScatterDims.sKept, h2, mem_kept]; exact not_not.mpr (List.mem_singleton.mpr rfl))]

theorem window_col (h1 : d.updateWindowDims = [1]) (h2 : d.insertedWindowDims = [0]) (e : Fin E) (c : Fin C) :
    d.window (ix2 e c) 1 = c.val := by
  obtain ⟨uw, iw, sd, iv, wf⟩ := d
  dsimp only at h1 h2
  subst h1 h2
  unfold ScatterDims.window
  rw [dif_pos (by rw [ScatterDims.sKept, mem_kept]; exact one_not_mem)]
  rfl

/-- Update `(e, c)` lands at `(n, c')` exactly when row `e`'s start word, read signed, is `n`, and `c = c'`. -/
theorem resultIdx?_iff (h1 : d.updateWindowDims = [1]) (h2 : d.insertedWindowDims = [0])
    (h3 : d.scatterDimsToOperandDims = [0]) (h4 : d.indexVectorDim = 1) {w : ℕ} (idx : IVec ⟨2, ![E, 1]⟩ w)
    (e : Fin E) (c : Fin C) (n : Fin N) (c' : Fin C) :
    d.resultIdx? (ix2 e c) idx = some (ix2 n c') ↔ (idx (startAt e)).toInt = (n.val : ℤ) ∧ c = c' := by
  have s0 := start_row d h3 h1 h4 idx e c
  have s1 := start_col d h3 idx (ix2 e c)
  have w0 := window_row d h2 (ix2 e c)
  have w1 := window_col d h1 h2 e c
  unfold ScatterDims.resultIdx?
  constructor
  · intro h
    split at h
    · rename_i hin
      have hf := Option.some.inj h
      have e0 := congrArg (fun f => (f 0).val) hf
      have e1 := congrArg (fun f => (f 1).val) hf
      simp only [s0, s1, w0, w1] at e0 e1
      have h0 := (hin 0).1
      rw [s0, w0] at h0
      refine ⟨?_, Fin.ext ?_⟩
      · have : ((idx (startAt e)).toInt + ((0 : ℕ) : ℤ)).toNat = n.val := e0
        omega
      · have : ((0 : ℤ) + (c.val : ℤ)).toNat = c'.val := e1
        omega
    · exact absurd h (by simp)
  · rintro ⟨hz, rfl⟩
    have hin : ∀ a : Fin 2, 0 ≤ d.start (ix2 e c) idx a + (d.window (ix2 e c) a : ℤ) ∧
        d.start (ix2 e c) idx a + (d.window (ix2 e c) a : ℤ) < ((⟨2, ![N, C]⟩ : Shape).size a : ℤ) := by
      intro a
      match a with
      | ⟨0, _⟩ =>
        rw [show (⟨0, _⟩ : Fin 2) = 0 from rfl, s0, w0, hz]
        have := n.isLt
        exact ⟨by omega, by show (n.val : ℤ) + ((0 : ℕ) : ℤ) < (N : ℤ); omega⟩
      | ⟨1, _⟩ =>
        rw [show (⟨1, _⟩ : Fin 2) = 1 from rfl, s1, w1]
        have := c.isLt
        exact ⟨by omega, by show (0 : ℤ) + (c.val : ℤ) < (C : ℤ); omega⟩
    rw [dif_pos hin]
    congr 1
    funext a
    refine Fin.ext ?_
    match a with
    | ⟨0, _⟩ =>
      show (d.start (ix2 e c) idx 0 + (d.window (ix2 e c) 0 : ℤ)).toNat = n.val
      rw [s0, w0, hz]; omega
    | ⟨1, _⟩ =>
      show (d.start (ix2 e c) idx 1 + (d.window (ix2 e c) 1 : ℤ)).toNat = c.val
      rw [s1, w1]; omega

/-- THE SCATTER-ADD OF ROWS AT `(n, c)`, at the exact values: the table's entry plus, over every update row, the
    update's entry in column `c` when that row's start word is `n`. -/
theorem hostScatterAdd_rows_apply (h1 : d.updateWindowDims = [1]) (h2 : d.insertedWindowDims = [0])
    (h3 : d.scatterDimsToOperandDims = [0]) (h4 : d.indexVectorDim = 1) {w : ℕ}
    (x : (⟨2, ![N, C]⟩ : Shape).Idx → EReal) (idx : IVec ⟨2, ![E, 1]⟩ w) (upd : (⟨2, ![E, C]⟩ : Shape).Idx → EReal)
    (n : Fin N) (c : Fin C) :
    Ideal.hostScatterAdd d x idx upd (ix2 n c)
      = x (ix2 n c) + ∑ e : Fin E, if (idx (startAt e)).toInt = (n.val : ℤ) then upd (ix2 e c) else 0 := by
  unfold Ideal.hostScatterAdd
  congr 1
  rw [Finset.sum_filter, sum_idx2]
  refine Finset.sum_congr rfl fun e _ => ?_
  simp only [resultIdx?_iff d h1 h2 h3 h4]
  by_cases hz : (idx (startAt e)).toInt = (n.val : ℤ)
  · simp only [hz, true_and, if_true]
    rw [Finset.sum_ite_eq' Finset.univ c (fun c' => upd (ix2 e c'))]
    simp
  · simp only [hz, false_and, if_false]
    exact Finset.sum_const_zero

end Scatter

/-! ## The gather of rows -/

section Gather

variable (g : GatherDims ⟨2, ![N, C]⟩ ⟨2, ![E, 1]⟩ ⟨2, ![E, C]⟩)

/-- The table row that result row `e` reads: its start word read signed, clamped into `0 … N − 1`. -/
def rowOf {w : ℕ} (hN : 0 < N) (idx : IVec ⟨2, ![E, 1]⟩ w) (e : Fin E) : Fin N :=
  ⟨min (idx (startAt e)).toInt.toNat (N - 1), by omega⟩

/-- THE GATHER OF ROWS AT `(e, c)`: the table at `(rowOf e, c)`. -/
theorem gather_rows_apply {α : Type} (hN : 0 < N) (ho : g.offsetDims = [1]) (hc : g.collapsedSliceDims = [0])
    (hob : g.operandBatchingDims = []) (hsb : g.startIndicesBatchingDims = []) (hm : g.startIndexMap = [0])
    (hv : g.indexVectorDim = 1) (hs : g.sliceSizes = ![1, C]) {w : ℕ}
    (x : (⟨2, ![N, C]⟩ : Shape).Idx → α) (idx : IVec ⟨2, ![E, 1]⟩ w) (e : Fin E) (c : Fin C) :
    Host.gather g x idx (ix2 e c) = x (ix2 (rowOf hN idx e) c) := by
  obtain ⟨od, cs, ob, sb, sm, iv, ss, wf⟩ := g
  dsimp only at ho hc hob hsb hm hv hs
  subst ho hc hob hsb hm hv hs
  unfold Host.gather
  congr 1
  funext a
  refine Fin.ext ?_
  match a with
  | ⟨0, _⟩ =>
    show GatherDims.start _ (ix2 e c) idx 0 + GatherDims.batchCoord _ (ix2 e c) 0 + GatherDims.offCoord _ (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (N - 1) = min (idx (startAt e)).toInt.toNat (N - 1)
    congr 4
    funext b
    refine Fin.ext ?_
    match b with
    | ⟨0, _⟩ => rfl
    | ⟨1, _⟩ => rfl
  | ⟨1, _⟩ =>
    show GatherDims.start _ (ix2 e c) idx 1 + GatherDims.batchCoord _ (ix2 e c) 1 + GatherDims.offCoord _ (ix2 e c) 1 = c.val
    rw [GatherDims.batchCoord_eq_zero _ _ _ List.not_mem_nil]
    unfold GatherDims.start GatherDims.offCoord
    rw [dif_neg (by exact one_not_mem), dif_pos ((GatherDims.mem_sKept _ _).mpr ⟨one_not_mem, List.not_mem_nil⟩)]
    simp only [Nat.add_zero, Nat.zero_add]
    rfl

end Gather

end Cert.Lib.RowGatherScatter

end
-- ==== Proof.KHost.lean ====
/-
  What the host lines before the kernel leave in the kernel's seven input arrays.

  The 204 row numbers are a literal table.  Each is normalised (a negative word would have 107127 added; none is
  negative), tested for 0 <= word <= 107126 (every entry passes), and used as the start of a one-row slice of a
  base: the gathered block's row r is row  rows(r) = the table's word  of the base, and since every in-range
  test passes the select keeps the gathered row rather than the fill value.  The coefficient arrays [64, K, 1]
  are viewed as [64, K] (same row-major order), and the weight column is a second literal table.
-/
import proofs.«113782_j4947802325291_2_alg».proof.Proof.Gen.KernelIdeal.Frame
import proofs.«113782_j4947802325291_2_alg».proof.Proof.LibRowGatherScatter
import Idealize.ShloMosaic.Lib.StableHlo.Run
import Idealize.ShloMosaic.Lib.ValueIdx
import Idealize.ShloMosaic.Lib.ValueLayout
import Idealize.ShloMosaic.Lib.Pipeline.Value
import Idealize.ShloMosaic.Lib.ReduceAll

noncomputable section

namespace Cert.KernelIdeal.HostIn

open Cert.KernelIdeal Cert.KernelIdeal.Gen Idealize.ShloMosaic Idealize.ShloMosaic.TcCoe Idealize.SL.Sem
open Idealize.ShloMosaic.StableHlo Idealize.ShloMosaic.ValueIdx

/-! ## The start words and the in-range test, word by word -/

/-- A start word normalised: a negative one has the base's row count added. -/
def startWord (w : BitVec 32) : BitVec 32 :=
  Scalar.select (IntOp.cmpi .slt w 0#32) (IntOp.addi w 107127#32) w

/-- Every table entry, normalised, lies in 0 … 107126. -/
theorem inRange_tab : ∀ r : Fin 204,
    IntOp.andi (IntOp.cmpi .sge (startWord (lit0 r)) 0#32) (IntOp.cmpi .sle (startWord (lit0 r)) 107126#32) = 1#1 := by
  decide +kernel

/-- Every table entry is a row of the base. -/
theorem rows_lt : ∀ r : Fin 204, (lit0 r).toNat < 107127 := by decide +kernel

/-- Normalising and clamping into 0 … 107126 leaves every table entry as it is. -/
theorem clamp_tab : ∀ r : Fin 204, min (startWord (lit0 r)).toInt.toNat (107127 - 1) = (lit0 r).toNat := by
  decide +kernel

/-- The base row that selected row `r` is. -/
def rows (r : Fin 204) : Fin 107127 := ⟨(lit0 r).toNat, rows_lt r⟩

/-! ## The host's vectors -/

/-- The table as the host's vector. -/
def tab : IVec S204 32 := fun i => lit0 (S204.rowMajor i)

theorem tab_apply (r : Fin 204) : tab (ix1 r) = lit0 r :=
  congrArg lit0 (Fin.ext (Shape.rowMajor_val_one (ix1 r)))

/-- The normalised start words as the [204, 1] array the gather takes. -/
def startVec : IVec S204x1 32 :=
  broadcastInDim S204x1 ![0] bcast_S204_S204x1_0
    (select (cmpi .slt tab (broadcastInDim S204 ![] bcast_S_S204 (constantI S_ 32 0#32)))
      (addi tab (broadcastInDim S204 ![] bcast_S_S204 (constantI S_ 32 107127#32))) tab)

theorem startVec_apply (r : Fin 204) (u : Fin 1) : startVec (ix2 r u) = startWord (lit0 r) := by
  unfold startVec
  refine (broadcastInDim_apply _ _ _ (ix2 r u) (ix1 r) (fun a => by
    match a with
    | ⟨0, _⟩ => rfl)).trans ?_
  show startWord (tab (ix1 r)) = _
  rw [tab_apply]

/-- A reduction by `and` from 1 over words that are all 1 is 1. -/
theorem reduce_andi_ones {s t u : Shape} {axes : List (Fin s.rank)} (x : s.Idx → BitVec 1) (init : u.Idx → BitVec 1)
    (h : s.ReducesTo axes t) (hu : 0 < u.numel) (j : t.Idx) (hx : ∀ i, x i = 1#1) (hi : ∀ i, init i = 1#1) :
    Host.reduce IntOp.andi x init h hu j = 1#1 := by
  rw [Host.reduce_eq_foldl]
  generalize ((List.finRange s.numel).map s.rowMajor.symm).filter (fun i => h.drop i = j) = l
  have : ∀ (l : List s.Idx) (a : BitVec 1), a = 1#1 → l.foldl (fun r i => IntOp.andi r (x i)) a = 1#1 := by
    intro l
    induction l with
    | nil => intro a ha; exact ha
    | cons b l ih =>
      intro a ha
      rw [List.foldl_cons]
      exact ih _ (IntOp.andi_eq_one.mpr ⟨ha, hx b⟩)
  exact this l _ (hi _)

/-- The in-range bits, one per row. -/
def inRange : IVec S204 1 :=
  Host.reduce IntOp.andi
    (andi (cmpi .sge startVec (broadcastInDim S204x1 ![] bcast_S_S204x1 (constantI S_ 32 0#32)))
      (cmpi .sle startVec (broadcastInDim S204x1 ![0, 1] bcast_S1x1_S204x1_0_1
        (broadcastInDim S1x1 ![1] bcast_S1_S1x1_1 (constantI S1 32 107126#32)))))
    (constantI S_ 1 1#1) reducesTo_S204x1_S204_d1 h_S_

theorem inRange_apply (j : S204.Idx) : inRange j = 1#1 := by
  unfold inRange
  refine reduce_andi_ones _ _ _ _ j (fun i => ?_) (fun _ => rfl)
  obtain ⟨r, u, rfl⟩ : ∃ (r : Fin 204) (u : Fin 1), i = ix2 r u := ⟨i 0, i 1, eq_ix2 i⟩
  show IntOp.andi (IntOp.cmpi .sge (startVec (ix2 r u)) 0#32) (IntOp.cmpi .sle (startVec (ix2 r u)) 107126#32) = 1#1
  rw [startVec_apply]
  exact inRange_tab r

/-! ## The gathered blocks -/

/-- The 204 rows of the first base, as the host computes them. -/
def take80 (A : FVec Ideal S107127x80 .f32) : FVec Ideal S204x80 .f32 :=
  select (broadcastInDim S204x80 ![0] bcast_S204_S204x80_0 inRange)
    (Host.gather gather_S107127x80_S204x1_S204x80_1_0_n_n_0_1_180 A startVec)
    (broadcastInDim S204x80 ![] bcast_S_S204x80 (constant (F := Ideal) S_ .f32 0x7FC00000#32))

/-- The 204 rows of the second base. -/
def take64 (E : FVec Ideal S107127x64 .f32) : FVec Ideal S204x64 .f32 :=
  select (broadcastInDim S204x64 ![0] bcast_S204_S204x64_0 inRange)
    (Host.gather gather_S107127x64_S204x1_S204x64_1_0_n_n_0_1_164 E startVec)
    (broadcastInDim S204x64 ![] bcast_S_S204x64 (constant (F := Ideal) S_ .f32 0x7FC00000#32))

theorem rowOf_eq (r : Fin 204) :
    Cert.Lib.RowGatherScatter.rowOf (N := 107127) (by decide) startVec r = rows r := by
  refine Fin.ext ?_
  show min (startVec (ix2 r ⟨0, Nat.one_pos⟩)).toInt.toNat (107127 - 1) = (lit0 r).toNat
  rw [startVec_apply]
  exact clamp_tab r

theorem take80_apply (A : FVec Ideal S107127x80 .f32) (r : Fin 204) (k : Fin 80) :
    take80 A (ix2 r k) = A (ix2 (rows r) k) := by
  show Scalar.select (broadcastInDim S204x80 ![0] bcast_S204_S204x80_0 inRange (ix2 r k))
    (Host.gather gather_S107127x80_S204x1_S204x80_1_0_n_n_0_1_180 A startVec (ix2 r k)) _ = _
  rw [broadcastInDim_apply _ _ inRange (ix2 r k) (ix1 r) (fun a => by
    match a with
    | ⟨0, _⟩ => rfl), inRange_apply, select_one,
    Cert.Lib.RowGatherScatter.gather_rows_apply _ (by decide) rfl rfl rfl rfl rfl rfl rfl, rowOf_eq]

theorem take64_apply (E : FVec Ideal S107127x64 .f32) (r : Fin 204) (k : Fin 64) :
    take64 E (ix2 r k) = E (ix2 (rows r) k) := by
  show Scalar.select (broadcastInDim S204x64 ![0] bcast_S204_S204x64_0 inRange (ix2 r k))
    (Host.gather gather_S107127x64_S204x1_S204x64_1_0_n_n_0_1_164 E startVec (ix2 r k)) _ = _
  rw [broadcastInDim_apply _ _ inRange (ix2 r k) (ix1 r) (fun a => by
    match a with
    | ⟨0, _⟩ => rfl), inRange_apply, select_one,
    Cert.Lib.RowGatherScatter.gather_rows_apply _ (by decide) rfl rfl rfl rfl rfl rfl rfl, rowOf_eq]

/-! ## The coefficient arrays and the weights -/

/-- An [a, b, 1] array viewed as [a, b] reads, at (i, j), the array at (i, j, 0). -/
theorem shapeCast_ab1_ab_apply {α : Type} {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    omega)

/-- The weight column as the host's array. -/
def wcol : FVec Ideal S204x1 .f32 := fun i => FloatOps.ofBits .f32 (lit1 (S204x1.rowMajor i))

theorem wcol_apply (r : Fin 204) (u : Fin 1) : wcol (ix2 r u) = Ideal.ofBits .f32 (lit1 r) := by
  show Ideal.ofBits .f32 (lit1 (S204x1.rowMajor (ix2 r u))) = _
  refine congrArg (fun k => Ideal.ofBits .f32 (lit1 k)) (Fin.ext ?_)
  rw [Shape.rowMajor_val_two]
  show r.val * 1 + u.val = r.val
  omega

end Cert.KernelIdeal.HostIn

end
-- ==== Proof.KArrays.lean ====
/-
  The seven arrays the kernel's region finds, as functions of the six argument arrays, and each window's block
  read at an index.

  The host lines before the region leave: the gathered rows of the two bases (windows 0 and 1), the four
  coefficient arrays viewed as matrices (windows 2 to 5) and the weight column (window 6).  The grid has one
  point and every window's block is its whole array, so a block read at (p, q) is the array at (p, q).
-/
import proofs.«113782_j4947802325291_2_alg».proof.Proof.Gen.KernelIdeal.Frame
import proofs.«113782_j4947802325291_2_alg».proof.Proof.KHost
import Idealize.ShloMosaic.Lib.StableHlo.Run
import Idealize.ShloMosaic.Lib.Pipeline.Value

set_option maxRecDepth 16384

noncomputable section

namespace Cert.KernelIdeal.KArrays

open Cert.KernelIdeal Cert.KernelIdeal.Gen Idealize.ShloMosaic Idealize.ShloMosaic.TcCoe Idealize.SL.Sem
open Idealize.ShloMosaic.StableHlo Idealize.ShloMosaic.ValueIdx Cert.KernelIdeal.HostIn
open Idealize.ShloMosaic.Pipeline (Dat)

variable (m : (ℓ : Loc nD τ sig) → Buf (Elt Ideal) ℓ) (ρ : Dev nD → PrngReg)

/-! ## The arrays the region finds -/

set_option maxHeartbeats 1000000 in
theorem V_v0 (c : Dev nD) : (V m c main_v0 : S204x80.Idx → EReal) = take80 (m ((c : Thread nD τ).loc main_arg4)) := by
  dsimp only [Gen.V, Gen.V0]
  simp only [Gen.hostOps0, Gen.hostOps0_1, Gen.hostOps0_2, Gen.hostOps0_3, List.flatten_cons, List.flatten_nil, List.append_nil, List.cons_append, List.nil_append]
  after_results_simp
  rfl

set_option maxHeartbeats 1000000 in
theorem V_v1 (c : Dev nD) : (V m c main_v1 : S204x64.Idx → EReal) = take64 (m ((c : Thread nD τ).loc main_arg5)) := by
  dsimp only [Gen.V, Gen.V0]
  simp only [Gen.hostOps0, Gen.hostOps0_1, Gen.hostOps0_2, Gen.hostOps0_3, List.flatten_cons, List.flatten_nil, List.append_nil, List.cons_append, List.nil_append]
  after_results_simp
  rfl

set_option maxHeartbeats 1000000 in
theorem V_v2 (c : Dev nD) : (V m c main_v2 : S64x80.Idx → EReal)
    = shapeCast S64x80 (m ((c : Thread nD τ).loc main_arg0) : S64x80x1.Idx → EReal) shapeCasts_S64x80x1_S64x80 := by
  dsimp only [Gen.V, Gen.V0]
  simp only [Gen.hostOps0, Gen.hostOps0_1, Gen.hostOps0_2, Gen.hostOps0_3, List.flatten_cons, List.flatten_nil, List.append_nil, List.cons_append, List.nil_append]
  after_results_simp
  rfl

set_option maxHeartbeats 1000000 in
theorem V_v3 (c : Dev nD) : (V m c main_v3 : S64x64.Idx → EReal)
    = shapeCast S64x64 (m ((c : Thread nD τ).loc main_arg1) : S64x64x1.Idx → EReal) shapeCasts_S64x64x1_S64x64 := by
  dsimp only [Gen.V, Gen.V0]
  simp only [Gen.hostOps0, Gen.hostOps0_1, Gen.hostOps0_2, Gen.hostOps0_3, List.flatten_cons, List.flatten_nil, List.append_nil, List.cons_append, List.nil_append]
  after_results_simp
  rfl

set_option maxHeartbeats 1000000 in
theorem V_v4 (c : Dev nD) : (V m c main_v4 : S64x80.Idx → EReal)
    = shapeCast S64x80 (m ((c : Thread nD τ).loc main_arg2) : S64x80x1.Idx → EReal) shapeCasts_S64x80x1_S64x80 := by
  dsimp only [Gen.V, Gen.V0]
  simp only [Gen.hostOps0, Gen.hostOps0_1, Gen.hostOps0_2, Gen.hostOps0_3, List.flatten_cons, List.flatten_nil, List.append_nil, List.cons_append, List.nil_append]
  after_results_simp
  rfl

set_option maxHeartbeats 1000000 in
theorem V_v5 (c : Dev nD) : (V m c main_v5 : S64x64.Idx → EReal)
    = shapeCast S64x64 (m ((c : Thread nD τ).loc main_arg3) : S64x64x1.Idx → EReal) shapeCasts_S64x64x1_S64x64 := by
  dsimp only [Gen.V, Gen.V0]
  simp only [Gen.hostOps0, Gen.hostOps0_1, Gen.hostOps0_2, Gen.hostOps0_3, List.flatten_cons, List.flatten_nil, List.append_nil, List.cons_append, List.nil_append]
  after_results_simp
  rfl

set_option maxHeartbeats 1000000 in
theorem V_cst (c : Dev nD) : (V m c main_cst : S204x1.Idx → EReal) = wcol := by
  dsimp only [Gen.V, Gen.V0]
  simp only [Gen.hostOps0, Gen.hostOps0_1, Gen.hostOps0_2, Gen.hostOps0_3, List.flatten_cons, List.flatten_nil, List.append_nil, List.cons_append, List.nil_append]
  after_results_simp
  rfl

/-! ## Each input block, read at an index -/

/-- Window 0's block is its whole array: read at (p, q) it is the array there. -/
theorem iblk0_apply (c : Dev nD) (t : Fin cfg0.N) (p : Fin 204) (q : Fin 80) :
    iblk m c 0 t (ix2 p q) = (V m c main_v0 : S204x80.Idx → EReal) (ix2 p q) := by
  show V m c main_v0 (((cfg0.win 0).blk t).view.emb (ix2 p q)) = _
  refine congrArg (V m c main_v0) (funext fun a => Fin.ext ?_)
  match a with
  | ⟨0, _⟩ => show win0_0.index t (0 : Fin 2) * 204 + 1 * p.val = p.val; rw [show win0_0.index t (0 : Fin 2) = 0 from rfl]; omega
  | ⟨1, _⟩ => show win0_0.index t (1 : Fin 2) * 80 + 1 * q.val = q.val; rw [show win0_0.index t (1 : Fin 2) = 0 from rfl]; omega

/-- Window 1's block is its whole array: read at (p, q) it is the array there. -/
theorem iblk1_apply (c : Dev nD) (t : Fin cfg0.N) (p : Fin 204) (q : Fin 64) :
    iblk m c 1 t (ix2 p q) = (V m c main_v1 : S204x64.Idx → EReal) (ix2 p q) := by
  show V m c main_v1 (((cfg0.win 1).blk t).view.emb (ix2 p q)) = _
  refine congrArg (V m c main_v1) (funext fun a => Fin.ext ?_)
  match a with
  | ⟨0, _⟩ => show win0_1.index t (0 : Fin 2) * 204 + 1 * p.val = p.val; rw [show win0_1.index t (0 : Fin 2) = 0 from rfl]; omega
  | ⟨1, _⟩ => show win0_1.index t (1 : Fin 2) * 64 + 1 * q.val = q.val; rw [show win0_1.index t (1 : Fin 2) = 0 from rfl]; omega

/-- Window 2's block is its whole array: read at (p, q) it is the array there. -/
theorem iblk2_apply (c : Dev nD) (t : Fin cfg0.N) (p : Fin 64) (q : Fin 80) :
    iblk m c 2 t (ix2 p q) = (V m c main_v2 : S64x80.Idx → EReal) (ix2 p q) := by
  show V m c main_v2 (((cfg0.win 2).blk t).view.emb (ix2 p q)) = _
  refine congrArg (V m c main_v2) (funext fun a => Fin.ext ?_)
  match a with
  | ⟨0, _⟩ => show win0_2.index t (0 : Fin 2) * 64 + 1 * p.val = p.val; rw [show win0_2.index t (0 : Fin 2) = 0 from rfl]; omega
  | ⟨1, _⟩ => show win0_2.index t (1 : Fin 2) * 80 + 1 * q.val = q.val; rw [show win0_2.index t (1 : Fin 2) = 0 from rfl]; omega

/-- Window 3's block is its whole array: read at (p, q) it is the array there. -/
theorem iblk3_apply (c : Dev nD) (t : Fin cfg0.N) (p : Fin 64) (q : Fin 64) :
    iblk m c 3 t (ix2 p q) = (V m c main_v3 : S64x64.Idx → EReal) (ix2 p q) := by
  show V m c main_v3 (((cfg0.win 3).blk t).view.emb (ix2 p q)) = _
  refine congrArg (V m c main_v3) (funext fun a => Fin.ext ?_)
  match a with
  | ⟨0, _⟩ => show win0_3.index t (0 : Fin 2) * 64 + 1 * p.val = p.val; rw [show win0_3.index t (0 : Fin 2) = 0 from rfl]; omega
  | ⟨1, _⟩ => show win0_3.index t (1 : Fin 2) * 64 + 1 * q.val = q.val; rw [show win0_3.index t (1 : Fin 2) = 0 from rfl]; omega

/-- Window 4's block is its whole array: read at (p, q) it is the array there. -/
theorem iblk4_apply (c : Dev nD) (t : Fin cfg0.N) (p : Fin 64) (q : Fin 80) :
    iblk m c 4 t (ix2 p q) = (V m c main_v4 : S64x80.Idx → EReal) (ix2 p q) := by
  show V m c main_v4 (((cfg0.win 4).blk t).view.emb (ix2 p q)) = _
  refine congrArg (V m c main_v4) (funext fun a => Fin.ext ?_)
  match a with
  | ⟨0, _⟩ => show win0_4.index t (0 : Fin 2) * 64 + 1 * p.val = p.val; rw [show win0_4.index t (0 : Fin 2) = 0 from rfl]; omega
  | ⟨1, _⟩ => show win0_4.index t (1 : Fin 2) * 80 + 1 * q.val = q.val; rw [show win0_4.index t (1 : Fin 2) = 0 from rfl]; omega

/-- Window 5's block is its whole array: read at (p, q) it is the array there. -/
theorem iblk5_apply (c : Dev nD) (t : Fin cfg0.N) (p : Fin 64) (q : Fin 64) :
    iblk m c 5 t (ix2 p q) = (V m c main_v5 : S64x64.Idx → EReal) (ix2 p q) := by
  show V m c main_v5 (((cfg0.win 5).blk t).view.emb (ix2 p q)) = _
  refine congrArg (V m c main_v5) (funext fun a => Fin.ext ?_)
  match a with
  | ⟨0, _⟩ => show win0_5.index t (0 : Fin 2) * 64 + 1 * p.val = p.val; rw [show win0_5.index t (0 : Fin 2) = 0 from rfl]; omega
  | ⟨1, _⟩ => show win0_5.index t (1 : Fin 2) * 64 + 1 * q.val = q.val; rw [show win0_5.index t (1 : Fin 2) = 0 from rfl]; omega

/-- Window 6's block is its whole array: read at (p, q) it is the array there. -/
theorem iblk6_apply (c : Dev nD) (t : Fin cfg0.N) (p : Fin 204) (q : Fin 1) :
    iblk m c 6 t (ix2 p q) = (V m c main_cst : S204x1.Idx → EReal) (ix2 p q) := by
  show V m c main_cst (((cfg0.win 6).blk t).view.emb (ix2 p q)) = _
  refine congrArg (V m c main_cst) (funext fun a => Fin.ext ?_)
  match a with
  | ⟨0, _⟩ => show win0_6.index t (0 : Fin 2) * 204 + 1 * p.val = p.val; rw [show win0_6.index t (0 : Fin 2) = 0 from rfl]; omega
  | ⟨1, _⟩ => show win0_6.index t (1 : Fin 2) * 1 + 1 * q.val = q.val; rw [show win0_6.index t (1 : Fin 2) = 0 from rfl]; omega

end Cert.KernelIdeal.KArrays

end
-- ==== Proof.KValue.lean ====
/-
  The kernel's run read as a value: the one number its result buffer ends holding, as a function of the six
  argument arrays.

  The body's seven loaded blocks are the arrays the host lines before it left, so the number it stores is the
  loss with the 204 rows selected first.  That number is written back to the [1, 1] output array, whose one block
  covers it, and the host line after the kernel views that array as a scalar.
-/
import proofs.«113782_j4947802325291_2_alg».proof.Proof.Gen.KernelIdeal.Frame
import proofs.«113782_j4947802325291_2_alg».proof.Proof.KBody
import proofs.«113782_j4947802325291_2_alg».proof.Proof.KHost
import proofs.«113782_j4947802325291_2_alg».proof.Proof.KArrays
import proofs.«113782_j4947802325291_2_alg».proof.Proof.Spec
import Idealize.ShloMosaic.Lib.StableHlo.Run
import Idealize.ShloMosaic.Lib.Pipeline.Value

set_option maxRecDepth 16384

noncomputable section

open scoped BigOperators

namespace Cert.KernelIdeal.KValue

open Cert.KernelIdeal Cert.KernelIdeal.Gen Idealize.ShloMosaic Idealize.ShloMosaic.TcCoe Idealize.SL.Sem
open Idealize.ShloMosaic.StableHlo Idealize.ShloMosaic.ValueIdx Cert.KernelIdeal.HostIn Cert.KernelIdeal.Body
open Cert.KernelIdeal.KArrays
open Idealize.ShloMosaic.Pipeline (Dat)

variable (m : (ℓ : Loc nD τ sig) → Buf (Elt Ideal) ℓ) (ρ : Dev nD → PrngReg)

/-- The weight of selected row `r`. -/
def wK (r : Fin 204) : EReal := Ideal.ofBits .f32 (lit1 r)

/-- The kernel's number on core `c`: the loss with the rows selected first, of the six argument arrays. -/
def kLoss (c : Dev nD) : EReal :=
  Cert.GeoLoss.loss HostIn.rows wK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-! ## The loaded blocks, entry by entry, in terms of the argument arrays -/

theorem blk0 (c : Dev nD) (t : Fin cfg0.N) (r : Fin 204) (k : Fin 80) :
    iblk m c 0 t (ix2 r k) = (m ((c : Thread nD τ).loc main_arg4) : S107127x80.Idx → EReal) (ix2 (HostIn.rows r) k) := by
  rw [iblk0_apply, V_v0, take80_apply]
theorem blk1 (c : Dev nD) (t : Fin cfg0.N) (r : Fin 204) (k : Fin 64) :
    iblk m c 1 t (ix2 r k) = (m ((c : Thread nD τ).loc main_arg5) : S107127x64.Idx → EReal) (ix2 (HostIn.rows r) k) := by
  rw [iblk1_apply, V_v1, take64_apply]
theorem blk2 (c : Dev nD) (t : Fin cfg0.N) (b : Fin 64) (k : Fin 80) :
    iblk m c 2 t (ix2 b k) = (m ((c : Thread nD τ).loc main_arg0) : S64x80x1.Idx → EReal) (ix3 b k (0 : Fin 1)) := by
  rw [iblk2_apply, V_v2, shapeCast_ab1_ab_apply]
theorem blk3 (c : Dev nD) (t : Fin cfg0.N) (b : Fin 64) (k : Fin 64) :
    iblk m c 3 t (ix2 b k) = (m ((c : Thread nD τ).loc main_arg1) : S64x64x1.Idx → EReal) (ix3 b k (0 : Fin 1)) := by
  rw [iblk3_apply, V_v3, shapeCast_ab1_ab_apply]
theorem blk4 (c : Dev nD) (t : Fin cfg0.N) (b : Fin 64) (k : Fin 80) :
    iblk m c 4 t (ix2 b k) = (m ((c : Thread nD τ).loc main_arg2) : S64x80x1.Idx → EReal) (ix3 b k (0 : Fin 1)) := by
  rw [iblk4_apply, V_v4, shapeCast_ab1_ab_apply]
theorem blk5 (c : Dev nD) (t : Fin cfg0.N) (b : Fin 64) (k : Fin 64) :
    iblk m c 5 t (ix2 b k) = (m ((c : Thread nD τ).loc main_arg3) : S64x64x1.Idx → EReal) (ix3 b k (0 : Fin 1)) := by
  rw [iblk5_apply, V_v5, shapeCast_ab1_ab_apply]
theorem blk6 (c : Dev nD) (t : Fin cfg0.N) (r : Fin 204) :
    iblk m c 6 t (ix2 r (0 : Fin 1)) = wK r := by
  rw [iblk6_apply, V_cst, wcol_apply]
  rfl

/-- The body's number at the loaded blocks is the kernel's number. -/
theorem blockLoss_eq (c : Dev nD) (t : Fin cfg0.N) :
    blockLoss (iblk m c 0 t) (iblk m c 1 t) (iblk m c 2 t) (iblk m c 3 t) (iblk m c 4 t) (iblk m c 5 t) (iblk m c 6 t) = kLoss m c :=
  blockLoss_congr (iblk m c 0 t) (iblk m c 1 t) (iblk m c 2 t) (iblk m c 3 t) (iblk m c 4 t) (iblk m c 5 t) (iblk m c 6 t) HostIn.rows wK _ _ _ _ _ _
    (blk0 m c t) (blk1 m c t) (blk2 m c t) (blk3 m c t) (blk4 m c t) (blk5 m c t) (blk6 m c t)

/-! ## The output array -/

theorem hz : (![0, 0] : Fin 2 → Nat) = fun _ => 0 := funext fun a => by fin_cases a <;> rfl

/-- WHAT POINT `t` WRITES BACK is the block of the constant array at the kernel's number. -/
theorem flushed7_eq (c : Dev nD) (t : Fin cfg0.N) :
    (dats m 0 c).flushed 7 t = ((cfg0.win 7).blk t).view.read (Elt Ideal) (fun _ => kLoss m c) := by
  show (cfg0.win 7).cut (grid0.coords t) ((dats m 0 c).after 7 t) = _
  rw [after0_7]
  unfold out0_7
  rw [View.canon_unit_zero hz]
  simp only [View.ld_unit_zero (S := S204x80) hz, View.ld_unit_zero (S := S204x64) hz, View.ld_unit_zero (S := S64x80) hz,
    View.ld_unit_zero (S := S64x64) hz, View.ld_unit_zero (S := S204x1) hz]
  funext j
  obtain ⟨u, v, rfl⟩ : ∃ (u v : Fin 1), j = ix2 u v := ⟨j 0, j 1, eq_ix2 j⟩
  show k0_pay1 (k0_pay2 (iblk m c 0 t) (iblk m c 1 t) (iblk m c 2 t) (iblk m c 3 t) (iblk m c 4 t) (iblk m c 5 t) (iblk m c 6 t)) (k0_pay3 (F := Ideal)) (ix2 u v) = kLoss m c
  exact (pay_apply (iblk m c 0 t) (iblk m c 1 t) (iblk m c 2 t) (iblk m c 3 t) (iblk m c 4 t) (iblk m c 5 t) (iblk m c 6 t) u v).trans (blockLoss_eq m c t)

/-- An index of the output array is in point `t`'s block iff each coordinate is in the block's range. -/
theorem mem_blk7 (t : Fin cfg0.N) (i : S1x1.Idx) :
    i ∈ ((cfg0.win 7).blk t).view.set ↔ ∀ a : Fin 2, win0_7.index t a * S1x1.size a ≤ (i a).val ∧ (i a).val < win0_7.index t a * S1x1.size a + S1x1.size a := by
  show i ∈ ((View.whole main_v6).slice (win0_7.rect t)).set ↔ _
  rw [View.set_slice_whole, Rect.mem_set_unit]
  exact Iff.rfl

/-- The one point's block covers the output array. -/
theorem cover7 (i : S1x1.Idx) : ∃ t : Fin cfg0.N, (cfg0.win 7).flush t = true ∧ i ∈ ((cfg0.win 7).blk t).view.set := by
  refine ⟨t0_0, flush0_7 _, ?_⟩
  rw [mem_blk7]
  intro a
  match a with
  | ⟨0, _⟩ =>
    show win0_7.index t0_0 (0 : Fin 2) * 1 ≤ (i 0).val ∧ (i 0).val < win0_7.index t0_0 (0 : Fin 2) * 1 + 1
    rw [show win0_7.index t0_0 (0 : Fin 2) = 0 from rfl]
    have : (i 0).val < 1 := (i 0).isLt
    omega
  | ⟨1, _⟩ =>
    show win0_7.index t0_0 (1 : Fin 2) * 1 ≤ (i 1).val ∧ (i 1).val < win0_7.index t0_0 (1 : Fin 2) * 1 + 1
    rw [show win0_7.index t0_0 (1 : Fin 2) = 0 from rfl]
    have : (i 1).val < 1 := (i 1).isLt
    omega

/-- THE OUTPUT ARRAY after the run holds the kernel's number. -/
theorem final7 (c : Dev nD) : (dats m 0 c).arrAt 7 cfg0.N = fun _ => kLoss m c :=
  (dats m 0 c).arrAt_eq_of_cover 7 (fun _ => kLoss m c) (fun t _ => flushed7_eq m c t) cover7

/-! ## The host line after the region, and the run -/

set_option pp.proofs false in
/-- The scalar result: the output array viewed as a scalar. -/
theorem tail_v7 (c : Dev nD) :
    Pipeline.afterTail₀ cfgs (dats m) 0 (V0 m) [hostOps1] c main_v7 = fun _ => kLoss m c := by
  unfold Pipeline.afterTail₀
  show StableHlo.after hostOps1 _ (Proc.devRef .tc main_v7) = _
  after_results
  have hw : Pipeline.withArrays (cfgs 0).spec c (V0 m c) (fun w => (dats m 0 c).arrAt w (cfgs 0).N) (Proc.devRef .tc main_v6)
      = (fun _ => kLoss m c) := (Pipeline.withArrays_arr spec0 launch0.win.arr_inj c _ _ 7).trans (final7 m c)
  rw [hw]
  rfl

/-- THE KERNEL'S RUN: every weakly fair execution terminates with the result at the kernel's number and the six
    arguments unchanged. -/
theorem run : θ_run defs (onTc (τ := τ) (main (F := Ideal))) ⟨m, fun _ => 0, ρ⟩ fun r => ∀ c : Dev nD,
      r.2.mem ((c : Thread nD τ).loc main_v7) = (fun _ => kLoss m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨((h c).2 main_v7 (Pipeline.mem_restRefs_of main_v7 (by decide) (by decide))).trans (tail_v7 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.KValue

end
-- ==== Proof.RefRun.lean ====
/-
  The reference program's @main as the list of its 41 host operations, and its run read back: every weakly
  fair execution terminates with each buffer at the fold of the operations' results over the launch contents.
  The composed term of the result is named here stage by stage: the geometry array g (two matrix products
  added and regrouped as [batch, vertex, coordinate]), the normalised vertex table, the weight array, and the
  loss (the weighted squared difference of the two gathered geometries, summed from the zero word, divided
  by the word of 68).
-/
import proofs.«113782_j4947802325291_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 41 operations, in order. -/
abbrev ops : List (HloOp τ sig (Elt F)) :=
  [ nullary main_c (fun i => lit0 (S68.rowMajor i)),
    nullary main_cst (fun i => FloatOps.ofBits .f32 (lit1 (S68.rowMajor i))),
    unary main_cst main_v0 (broadcastInDim S1x68x1 ![1] bcast_S68_S1x68x1_1 : (⟨S68, .f32⟩ : BufTy).Contents (Elt F) → (⟨S1x68x1, .f32⟩ : BufTy).Contents (Elt F)),
    reshape main_arg0 main_v1 rfl shapeCasts_S64x80x1_S64x80,
    binary main_v1 main_arg4 main_v2 ((fun l r => Host.dotGeneral dot_S64x80_S107127x80_S64x107127_1_1_0_0_n_n none l r) : (⟨S64x80, .f32⟩ : BufTy).Contents (Elt F) → (⟨S107127x80, .f32⟩ : BufTy).Contents (Elt F) → (⟨S64x107127, .f32⟩ : BufTy).Contents (Elt F)),
    reshape main_arg1 main_v3 rfl shapeCasts_S64x64x1_S64x64,
    binary main_v3 main_arg5 main_v4 ((fun l r => Host.dotGeneral dot_S64x64_S107127x64_S64x107127_1_1_0_0_n_n none l r) : (⟨S64x64, .f32⟩ : BufTy).Contents (Elt F) → (⟨S107127x64, .f32⟩ : BufTy).Contents (Elt F) → (⟨S64x107127, .f32⟩ : BufTy).Contents (Elt F)),
    binary main_v2 main_v4 main_v5 (addf : (⟨S64x107127, .f32⟩ : BufTy).Contents (Elt F) → (⟨S64x107127, .f32⟩ : BufTy).Contents (Elt F) → (⟨S64x107127, .f32⟩ : BufTy).Contents (Elt F)),
    reshape main_v5 main_v6 rfl shapeCasts_S64x107127_S64x35709x3,
    nullary main_c_0 (constantI S_ 32 0#32),
    unary main_c_0 main_v7 (broadcastInDim S68 ![] bcast_S_S68 : (⟨S_, .i32⟩ : BufTy).Contents (Elt F) → (⟨S68, .i32⟩ : BufTy).Contents (Elt F)),
    binary main_c main_v7 main_v8 (cmpi .slt : (⟨S68, .i32⟩ : BufTy).Contents (Elt F) → (⟨S68, .i32⟩ : BufTy).Contents (Elt F) → (⟨S68, .i1⟩ : BufTy).Contents (Elt F)),
    nullary main_c_1 (constantI S_ 32 35709#32),
    unary main_c_1 main_v9 (broadcastInDim S68 ![] bcast_S_S68 : (⟨S_, .i32⟩ : BufTy).Contents (Elt F) → (⟨S68, .i32⟩ : BufTy).Contents (Elt F)),
    binary main_c main_v9 main_v10 (addi : (⟨S68, .i32⟩ : BufTy).Contents (Elt F) → (⟨S68, .i32⟩ : BufTy).Contents (Elt F) → (⟨S68, .i32⟩ : BufTy).Contents (Elt F)),
    ternary main_v8 main_v10 main_c main_v11 (select : (⟨S68, .i1⟩ : BufTy).Contents (Elt F) → (⟨S68, .i32⟩ : BufTy).Contents (Elt F) → (⟨S68, .i32⟩ : BufTy).Contents (Elt F) → (⟨S68, .i32⟩ : BufTy).Contents (Elt F)),
    unary main_v11 main_v12 (broadcastInDim S68x1 ![0] bcast_S68_S68x1_0 : (⟨S68, .i32⟩ : BufTy).Contents (Elt F) → (⟨S68x1, .i32⟩ : BufTy).Contents (Elt F)),
    binary main_v6 main_v12 main_v13 ((fun x i => Host.gather gather_S64x35709x3_S68x1_S64x68x3_02_1_n_n_1_1_6413 x i) : (⟨S64x35709x3, .f32⟩ : BufTy).Contents (Elt F) → (⟨S68x1, .i32⟩ : BufTy).Contents (Elt F) → (⟨S64x68x3, .f32⟩ : BufTy).Contents (Elt F)),
    reshape main_arg2 main_v14 rfl shapeCasts_S64x80x1_S64x80,
    binary main_v14 main_arg4 main_v15 ((fun l r => Host.dotGeneral dot_S64x80_S107127x80_S64x107127_1_1_0_0_n_n none l r) : (⟨S64x80, .f32⟩ : BufTy).Contents (Elt F) → (⟨S107127x80, .f32⟩ : BufTy).Contents (Elt F) → (⟨S64x107127, .f32⟩ : BufTy).Contents (Elt F)),
    reshape main_arg3 main_v16 rfl shapeCasts_S64x64x1_S64x64,
    binary main_v16 main_arg5 main_v17 ((fun l r => Host.dotGeneral dot_S64x64_S107127x64_S64x107127_1_1_0_0_n_n none l r) : (⟨S64x64, .f32⟩ : BufTy).Contents (Elt F) → (⟨S107127x64, .f32⟩ : BufTy).Contents (Elt F) → (⟨S64x107127, .f32⟩ : BufTy).Contents (Elt F)),
    binary main_v15 main_v17 main_v18 (addf : (⟨S64x107127, .f32⟩ : BufTy).Contents (Elt F) → (⟨S64x107127, .f32⟩ : BufTy).Contents (Elt F) → (⟨S64x107127, .f32⟩ : BufTy).Contents (Elt F)),
    reshape main_v18 main_v19 rfl shapeCasts_S64x107127_S64x35709x3,
    nullary main_c_2 (constantI S_ 32 0#32),
    unary main_c_2 main_v20 (broadcastInDim S68 ![] bcast_S_S68 : (⟨S_, .i32⟩ : BufTy).Contents (Elt F) → (⟨S68, .i32⟩ : BufTy).Contents (Elt F)),
    binary main_c main_v20 main_v21 (cmpi .slt : (⟨S68, .i32⟩ : BufTy).Contents (Elt F) → (⟨S68, .i32⟩ : BufTy).Contents (Elt F) → (⟨S68, .i1⟩ : BufTy).Contents (Elt F)),
    nullary main_c_3 (constantI S_ 32 35709#32),
    unary main_c_3 main_v22 (broadcastInDim S68 ![] bcast_S_S68 : (⟨S_, .i32⟩ : BufTy).Contents (Elt F) → (⟨S68, .i32⟩ : BufTy).Contents (Elt F)),
    binary main_c main_v22 main_v23 (addi : (⟨S68, .i32⟩ : BufTy).Contents (Elt F) → (⟨S68, .i32⟩ : BufTy).Contents (Elt F) → (⟨S68, .i32⟩ : BufTy).Contents (Elt F)),
    ternary main_v21 main_v23 main_c main_v24 (select : (⟨S68, .i1⟩ : BufTy).Contents (Elt F) → (⟨S68, .i32⟩ : BufTy).Contents (Elt F) → (⟨S68, .i32⟩ : BufTy).Contents (Elt F) → (⟨S68, .i32⟩ : BufTy).Contents (Elt F)),
    unary main_v24 main_v25 (broadcastInDim S68x1 ![0] bcast_S68_S68x1_0 : (⟨S68, .i32⟩ : BufTy).Contents (Elt F) → (⟨S68x1, .i32⟩ : BufTy).Contents (Elt F)),
    binary main_v19 main_v25 main_v26 ((fun x i => Host.gather gather_S64x35709x3_S68x1_S64x68x3_02_1_n_n_1_1_6413 x i) : (⟨S64x35709x3, .f32⟩ : BufTy).Contents (Elt F) → (⟨S68x1, .i32⟩ : BufTy).Contents (Elt F) → (⟨S64x68x3, .f32⟩ : BufTy).Contents (Elt F)),
    binary main_v13 main_v26 main_v27 (subf : (⟨S64x68x3, .f32⟩ : BufTy).Contents (Elt F) → (⟨S64x68x3, .f32⟩ : BufTy).Contents (Elt F) → (⟨S64x68x3, .f32⟩ : BufTy).Contents (Elt F)),
    binary main_v27 main_v27 main_v28 (mulf : (⟨S64x68x3, .f32⟩ : BufTy).Contents (Elt F) → (⟨S64x68x3, .f32⟩ : BufTy).Contents (Elt F) → (⟨S64x68x3, .f32⟩ : BufTy).Contents (Elt F)),
    unary main_v0 main_v29 (broadcastInDim S64x68x3 ![0, 1, 2] bcast_S1x68x1_S64x68x3_0_1_2 : (⟨S1x68x1, .f32⟩ : BufTy).Contents (Elt F) → (⟨S64x68x3, .f32⟩ : BufTy).Contents (Elt F)),
    binary main_v29 main_v28 main_v30 (mulf : (⟨S64x68x3, .f32⟩ : BufTy).Contents (Elt F) → (⟨S64x68x3, .f32⟩ : BufTy).Contents (Elt F) → (⟨S64x68x3, .f32⟩ : BufTy).Contents (Elt F)),
    nullary main_cst_4 (constant S_ .f32 0x00000000#32),
    binary main_v30 main_cst_4 main_v31 ((fun x v => Host.reduceAdd x v reducesTo_S64x68x3_S_d0_1_2 h_S_) : (⟨S64x68x3, .f32⟩ : BufTy).Contents (Elt F) → (⟨S_, .f32⟩ : BufTy).Contents (Elt F) → (⟨S_, .f32⟩ : BufTy).Contents (Elt F)),
    nullary main_cst_5 (constant S_ .f32 0x42880000#32),
    binary main_v31 main_cst_5 main_v32 (Host.divf : (⟨S_, .f32⟩ : BufTy).Contents (Elt F) → (⟨S_, .f32⟩ : BufTy).Contents (Elt F) → (⟨S_, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., unary_bufs_sub .., reshape_bufs_sub .., binary_bufs_sub .., reshape_bufs_sub .., binary_bufs_sub .., binary_bufs_sub .., reshape_bufs_sub .., nullary_bufs_sub .., unary_bufs_sub .., binary_bufs_sub .., nullary_bufs_sub .., unary_bufs_sub .., binary_bufs_sub .., ternary_bufs_sub .., unary_bufs_sub .., binary_bufs_sub .., reshape_bufs_sub .., binary_bufs_sub .., reshape_bufs_sub .., binary_bufs_sub .., binary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., binary_bufs_sub .., nullary_bufs_sub .., binary_bufs_sub .., nullary_bufs_sub .., binary_bufs_sub ..⟩

/-! ## The stages of the result -/

/-- The vertex table as the program holds it: word `l` of the literal table at index `l`. -/
def tab0 : IVec S68 32 := fun i => lit0 (S68.rowMajor i)

/-- The weight table: the float of word `l` of the literal table at index `l`. -/
def tab1 : FVec F S68 .f32 := fun i => FloatOps.ofBits .f32 (lit1 (S68.rowMajor i))

/-- The geometry array: coefficient rows against the rows of the two bases, added, regrouped as
    [batch, vertex, coordinate]. -/
def geoT (a : FVec F S64x80x1 .f32) (d : FVec F S64x64x1 .f32) (A : FVec F S107127x80 .f32) (E : FVec F S107127x64 .f32) :
    FVec F S64x35709x3 .f32 :=
  shapeCast _ (addf
    (Host.dotGeneral dot_S64x80_S107127x80_S64x107127_1_1_0_0_n_n none (shapeCast _ a shapeCasts_S64x80x1_S64x80) A)
    (Host.dotGeneral dot_S64x64_S107127x64_S64x107127_1_1_0_0_n_n none (shapeCast _ d shapeCasts_S64x64x1_S64x64) E))
    shapeCasts_S64x107127_S64x35709x3

/-- The start indices of the gather: a negative entry of the table moved up by the vertex count, as a column. -/
def idxT : IVec S68x1 32 :=
  broadcastInDim S68x1 ![0] bcast_S68_S68x1_0
    (select (cmpi .slt tab0 (broadcastInDim S68 ![] bcast_S_S68 (constantI S_ 32 0#32)))
      (addi tab0 (broadcastInDim S68 ![] bcast_S_S68 (constantI S_ 32 35709#32))) tab0)

/-- The selected vertices of a geometry array. -/
def pickT (g : FVec F S64x35709x3 .f32) : FVec F S64x68x3 .f32 :=
  Host.gather gather_S64x35709x3_S68x1_S64x68x3_02_1_n_n_1_1_6413 g idxT

/-- The weights spread over [batch, vertex, coordinate]. -/
def wT : FVec F S64x68x3 .f32 :=
  broadcastInDim S64x68x3 ![0, 1, 2] bcast_S1x68x1_S64x68x3_0_1_2 (broadcastInDim S1x68x1 ![1] bcast_S68_S1x68x1_1 (tab1 (F := F)))

/-- The weighted squared differences. -/
def termT (p q : FVec F S64x68x3 .f32) : FVec F S64x68x3 .f32 :=
  mulf (wT (F := F)) (mulf (subf p q) (subf p q))

/-- The result: their sum from the zero word, divided by the word of 68. -/
def lossT (a : FVec F S64x80x1 .f32) (d : FVec F S64x64x1 .f32) (a' : FVec F S64x80x1 .f32) (d' : FVec F S64x64x1 .f32)
    (A : FVec F S107127x80 .f32) (E : FVec F S107127x64 .f32) : FVec F S_ .f32 :=
  Host.divf
    (Host.reduceAdd (termT (pickT (geoT a d A E)) (pickT (geoT a' d' A E))) (constant S_ .f32 0x00000000#32)
      reducesTo_S64x68x3_S_d0_1_2 h_S_)
    (constant S_ .f32 0x42880000#32)

/-- The fold of the operations at the result buffer is the staged term of the six arguments. -/
theorem after_v32 (V : Valuation τ sig (Elt F)) :
    after ops V (Proc.devRef .tc main_v32)
      = lossT (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  after_results_simp
  rfl

theorem after_arg0 (V : Valuation τ sig (Elt F)) : after ops V (Proc.devRef .tc main_arg0) = V (Proc.devRef .tc main_arg0) := by
  after_results_simp
theorem after_arg1 (V : Valuation τ sig (Elt F)) : after ops V (Proc.devRef .tc main_arg1) = V (Proc.devRef .tc main_arg1) := by
  after_results_simp
theorem after_arg2 (V : Valuation τ sig (Elt F)) : after ops V (Proc.devRef .tc main_arg2) = V (Proc.devRef .tc main_arg2) := by
  after_results_simp
theorem after_arg3 (V : Valuation τ sig (Elt F)) : after ops V (Proc.devRef .tc main_arg3) = V (Proc.devRef .tc main_arg3) := by
  after_results_simp
theorem after_arg4 (V : Valuation τ sig (Elt F)) : after ops V (Proc.devRef .tc main_arg4) = V (Proc.devRef .tc main_arg4) := by
  after_results_simp
theorem after_arg5 (V : Valuation τ sig (Elt F)) : after ops V (Proc.devRef .tc main_arg5) = V (Proc.devRef .tc main_arg5) := by
  after_results_simp

/-- On every device, for any float values, from any memory with zero counters: every weakly fair execution of
    @main terminates with the result at the staged term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v32) = lossT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v32).trans (after_v32 _),
      (h c main_arg0).trans (after_arg0 _),
      (h c main_arg1).trans (after_arg1 _),
      (h c main_arg2).trans (after_arg2 _),
      (h c main_arg3).trans (after_arg3 _),
      (h c main_arg4).trans (after_arg4 _),
      (h c main_arg5).trans (after_arg5 _)⟩)
    (run_seq scopedRefs_eq scopedSems_eq defs main (fun _ => ops) main_eq (fun _ => ops_sub) m ρ)

end Cert.ReferenceIdeal.RefRun

end
-- ==== Proof.LibSlabGather.lean ====
/-
  Cert.Lib.SlabGather: index lemmas over variable extents and any element type where none is needed.
  A sum over a rank-3 index set as a triple sum over its coordinates; a matrix product contracting the second
  axis of both factors (x times the transpose of y) read at (row, row); a gather of whole (axis 0, axis 2) slabs
  at one start index per middle position, what x[:, idx, :] lowers to, read at (i, l, c) as the operand at
  (i, start index l read signed and clamped into [0, N - 1], c); and the regroupings [M, K, 1] -> [M, K] and
  [M, N * C] -> [M, N, C] read at an index.  The dimension numbers enter as records built here from the extents.
  Imports only the Idealize library.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Lib.SlabGather

open Idealize.ShloMosaic Idealize.ShloMosaic.ValueIdx

/-! ## A sum over a rank-3 index set -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## Rows against rows -/

/-- The dimension numbers of `x · yᵀ`: operands [M, K] and [N, K], both contracted on axis 1, result [M, N]. -/
abbrev ntDims (M K N : Nat)
    (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

/-- That product at (b, v) is the sum over k of row b of the left factor against row v of the right one. -/
theorem nt_apply {M K N : Nat} (wf : DotDims.WF ⟨2, ![M, K]⟩ ⟨2, ![N, K]⟩ ⟨2, ![M, N]⟩ [1] [1] [0] [0] [] [])
    (x : FVec Ideal ⟨2, ![M, K]⟩ .f32) (y : FVec Ideal ⟨2, ![N, K]⟩ .f32) (b : Fin M) (v : Fin N) :
    Host.dotGeneral (ntDims M K N wf) none x y (ix2 b v) = ∑ k : Fin K, x (ix2 b k) * y (ix2 v k) := by
  show FloatOps.dotGeneral (ntDims M K N wf) none .single x y (ix2 b v) = _
  rw [Ideal.dotGeneral_apply, ← Equiv.sum_comp (contrEquiv1 (ntDims M K N wf) K rfl rfl).symm]
  refine Finset.sum_congr rfl fun k _ => ?_
  have hl : (ntDims M K N wf).lhsIdx (ix2 b v) ((contrEquiv1 (ntDims M K N wf) K rfl rfl).symm k) = ix2 b k := by
    funext a
    refine Fin.ext ?_
    match a with
    | ⟨0, _⟩ => rfl
    | ⟨1, _⟩ =>
      exact ((ntDims M K N wf).lhsIdx_val_of_single (cl := 1) rfl _ _).trans
        (contrEquiv1_symm_val (ntDims M K N wf) K rfl rfl k)
  have hr : (ntDims M K N wf).rhsIdx (ix2 b v) ((contrEquiv1 (ntDims M K N wf) K rfl rfl).symm k) = ix2 v k := by
    funext a
    refine Fin.ext ?_
    match a with
    | ⟨0, _⟩ => rfl
    | ⟨1, _⟩ =>
      exact ((ntDims M K N wf).rhsIdx_val_of_single (cr := 1) rfl _ _).trans
        (contrEquiv1_symm_val (ntDims M K N wf) K rfl rfl k)
  rw [hl, hr]

/-! ## A gather of slabs along the middle axis -/

section Gather
variable {α : Type}

/-- The dimension numbers of `x[:, idx, :]` as a gather: operand [B, N, C], start indices [L, 1] (one component, for
    axis 1), slices [B, 1, C] with axis 1 collapsed, result [B, L, C] with offset axes 0 and 2. -/
abbrev midDims (B N C Lc : Nat)
    (wf : GatherDims.WF ⟨3, ![B, N, C]⟩ ⟨2, ![Lc, 1]⟩ ⟨3, ![B, Lc, C]⟩ [0, 2] [1] [] [1] [] 1 ![B, 1, C]) :
    GatherDims ⟨3, ![B, N, C]⟩ ⟨2, ![Lc, 1]⟩ ⟨3, ![B, Lc, C]⟩ where
  offsetDims := [0, 2]
  collapsedSliceDims := [1]
  operandBatchingDims := []
  startIndicesBatchingDims := []
  startIndexMap := [1]
  indexVectorDim := 1
  sliceSizes := ![B, 1, C]
  wf := wf

/-- The gather read at (b, l, c): the operand at (b, start index l read signed and clamped into [0, N - 1], c). -/
theorem gather_mid_apply {B N C Lc w : Nat} (hN : 0 < N)
    (wf : GatherDims.WF ⟨3, ![B, N, C]⟩ ⟨2, ![Lc, 1]⟩ ⟨3, ![B, Lc, C]⟩ [0, 2] [1] [] [1] [] 1 ![B, 1, C])
    (x : (⟨3, ![B, N, C]⟩ : Shape).Idx → α) (idx : IVec ⟨2, ![Lc, 1]⟩ w) (b : Fin B) (l : Fin Lc) (c : Fin C) :
    Host.gather (midDims B N C Lc wf) x idx (ix3 b l c)
      = x (ix3 b ⟨min (idx (ix2 l (0 : Fin 1))).toInt.toNat (N - 1), by omega⟩ c) := by
  unfold Host.gather
  congr 1
  funext a
  refine Fin.ext ?_
  show (midDims B N C Lc wf).start (ix3 b l c) idx a + (midDims B N C Lc wf).batchCoord (ix3 b l c) a
      + (midDims B N C Lc wf).offCoord (ix3 b l c) a = _
  rw [GatherDims.batchCoord_eq_zero _ _ _ List.not_mem_nil, Nat.add_zero]
  match a with
  | ⟨0, h0⟩ =>
    have hs : (midDims B N C Lc wf).start (ix3 b l c) idx ⟨0, h0⟩ = 0 := by
      unfold GatherDims.start
      exact dif_neg (by
        intro h
        have : (0 : Nat) = 1 := congrArg Fin.val (List.mem_singleton.mp h)
        omega)
    rw [hs, Nat.zero_add]
    rfl
  | ⟨1, h1⟩ =>
    rw [GatherDims.offCoord_eq_zero _ _ _ (fun h => ((GatherDims.mem_sKept _ _).mp h).1 (List.mem_singleton.mpr rfl)),
      Nat.add_zero]
    unfold GatherDims.start
    rw [dif_pos (show (⟨1, h1⟩ : Fin (⟨3, ![B, N, C]⟩ : Shape).rank) ∈ (midDims B N C Lc wf).startIndexMap from List.mem_singleton.mpr rfl)]
    have hsi : (midDims B N C Lc wf).siIdx (ix3 b l c)
        ⟨List.idxOf (⟨1, h1⟩ : Fin (⟨3, ![B, N, C]⟩ : Shape).rank) (midDims B N C Lc wf).startIndexMap,
          List.idxOf_lt_length_iff.2 (List.mem_singleton.mpr rfl)⟩ = ix2 l (0 : Fin 1) := by
      funext e; refine Fin.ext ?_
      match e with
      | ⟨0, _⟩ => rfl
      | ⟨1, _⟩ => rfl
    rw [hsi]
    rfl
  | ⟨2, h2⟩ =>
    have hs : (midDims B N C Lc wf).start (ix3 b l c) idx ⟨2, h2⟩ = 0 := by
      unfold GatherDims.start
      exact dif_neg (by
        intro h
        have : (2 : Nat) = 1 := congrArg Fin.val (List.mem_singleton.mp h)
        omega)
    rw [hs, Nat.zero_add]
    rfl

end Gather

/-! ## Regroupings read at an index -/

section Regroup
variable {α : Type}

/-- [M, K, 1] read as [M, K]. -/
theorem dropLast_apply {M K : Nat} (x : (⟨3, ![M, K, 1]⟩ : Shape).Idx → α)
    (h : (⟨3, ![M, K, 1]⟩ : Shape).ShapeCasts ⟨2, ![M, K]⟩) (b : Fin M) (k : Fin K) :
    shapeCast ⟨2, ![M, K]⟩ x h (ix2 b k) = x (ix3 b k (0 : Fin 1)) :=
  shapeCast_apply x h _ _ (by
    rw [Shape.rowMajor_val_three, Shape.rowMajor_val_two]
    show (b.val * K + k.val) * 1 + 0 = b.val * K + k.val
    omega)

/-- [M, P] read as [M, N, C] when P = N * C: position (b, v, c) is column v * C + c of row b. -/
theorem splitLast_apply {M P N C : Nat} (hP : P = N * C) (x : (⟨2, ![M, P]⟩ : Shape).Idx → α)
    (h : (⟨2, ![M, P]⟩ : Shape).ShapeCasts ⟨3, ![M, N, C]⟩) (b : Fin M) (v : Fin N) (c : Fin C) :
    shapeCast ⟨3, ![M, N, C]⟩ x h (ix3 b v c)
      = x (ix2 b ⟨v.val * C + c.val, by
          have := v.isLt; have := c.isLt; subst hP
          calc v.val * C + c.val < v.val * C + C := by omega
            _ = (v.val + 1) * C := by ring
            _ ≤ N * C := Nat.mul_le_mul_right C (by omega)⟩) :=
  shapeCast_apply x h _ _ (by
    rw [Shape.rowMajor_val_three, Shape.rowMajor_val_two]
    show b.val * P + (v.val * C + c.val) = (b.val * N + v.val) * C + c.val
    subst hP
    ring)

end Regroup

end Cert.Lib.SlabGather

end
-- ==== Proof.RefRead.lean ====
/-
  The stages of the reference's result read at an index, at the ideal values.
  The vertex table has no negative entry and every entry is below the vertex count 35709, so the normalised
  start indices are the table's own words and the gather's clamp leaves them alone: the gather picks vertex
  lit0(l). The geometry array at (b, v, c) is row 3 v + c of the two bases against coefficient row b.
-/
import proofs.«113782_j4947802325291_2_alg».proof.Proof.RefRun
import proofs.«113782_j4947802325291_2_alg».proof.Proof.LibSlabGather
import proofs.«113782_j4947802325291_2_alg».proof.Proof.Spec
import Idealize.ShloMosaic.Lib.IdealHost

noncomputable section

open scoped BigOperators

namespace Cert.ReferenceIdeal.RefRead

open Cert.ReferenceIdeal Cert.ReferenceIdeal.Gen Cert.ReferenceIdeal.RefRun Cert.Lib.SlabGather
open Idealize.ShloMosaic Idealize.ShloMosaic.ValueIdx

/-! ## The two tables -/

/-- No entry of the vertex table is negative as a signed word: the normalising select keeps every entry. -/
theorem lit0_keep : ∀ l : Fin 68,
    Scalar.select (IntOp.cmpi .slt (lit0 l) 0#32) (IntOp.addi (lit0 l) 35709#32) (lit0 l) = lit0 l := by
  decide

/-- Every entry, read signed, is its own number, and the clamp into [0, 35708] leaves it. -/
theorem lit0_clamp : ∀ l : Fin 68, min (lit0 l).toInt.toNat (35709 - 1) = (lit0 l).toNat := by
  decide

/-- Every entry is a vertex number. -/
theorem lit0_lt : ∀ l : Fin 68, (lit0 l).toNat < 35709 := by
  decide

/-- The vertex table as a function into the vertices. -/
def lmR (l : Fin 68) : Fin 35709 := ⟨(lit0 l).toNat, lit0_lt l⟩

theorem lmR_val (l : Fin 68) : (lmR l).val = (lit0 l).toNat := rfl

/-- The weight table as extended reals. -/
def wR (l : Fin 68) : EReal := Ideal.ofBits .f32 (lit1 l)

theorem wR_eq (l : Fin 68) : wR l = Ideal.ofBits .f32 (lit1 l) := rfl

/-- The row-major position of a rank-1 index is its coordinate. -/
theorem rowMajor_ix1 (l : Fin 68) : S68.rowMajor (ix1 l) = l :=
  Fin.ext (Shape.rowMajor_val_one (ix1 l))

theorem tab0_apply (l : Fin 68) : tab0 (ix1 l) = lit0 l := by
  unfold tab0
  rw [rowMajor_ix1]

theorem tab1_apply (l : Fin 68) : tab1 (F := Ideal) (ix1 l) = wR l := by
  unfold tab1
  rw [rowMajor_ix1]
  rfl

/-- The start index of position l is the table's word. -/
theorem idxT_apply (l : Fin 68) : idxT (ix2 l (0 : Fin 1)) = lit0 l := by
  unfold idxT
  refine (broadcastInDim_apply ![0] bcast_S68_S68x1_0 _ (ix2 l (0 : Fin 1)) (ix1 l) (fun a => ?_)).trans ?_
  · match a with
    | ⟨0, _⟩ => rfl
  · show Scalar.select (IntOp.cmpi .slt (tab0 (ix1 l)) 0#32) (IntOp.addi (tab0 (ix1 l)) 35709#32) (tab0 (ix1 l)) = lit0 l
    rw [tab0_apply]
    exact lit0_keep l

/-- The weight at (b, l, c) is the weight of vertex position l. -/
theorem wT_apply (b : Fin 64) (l : Fin 68) (c : Fin 3) : wT (F := Ideal) (ix3 b l c) = wR l := by
  unfold wT
  refine (broadcastInDim_apply ![0, 1, 2] bcast_S1x68x1_S64x68x3_0_1_2 _ (ix3 b l c)
    (ix3 (0 : Fin 1) l (0 : Fin 1)) (fun a => ?_)).trans ?_
  · match a with
    | ⟨0, _⟩ => rfl
    | ⟨1, _⟩ => rfl
    | ⟨2, _⟩ => rfl
  · refine (broadcastInDim_apply ![1] bcast_S68_S1x68x1_1 _ (ix3 (0 : Fin 1) l (0 : Fin 1)) (ix1 l) (fun a => ?_)).trans ?_
    · match a with
      | ⟨0, _⟩ => rfl
    · exact tab1_apply l

/-! ## The gather -/

/-- The gather picks vertex lmR l. -/
theorem pickT_apply (g : FVec Ideal S64x35709x3 .f32) (b : Fin 64) (l : Fin 68) (c : Fin 3) :
    pickT g (ix3 b l c) = g (ix3 b (lmR l) c) := by
  unfold pickT
  refine (gather_mid_apply (B := 64) (N := 35709) (C := 3) (Lc := 68) (by omega)
    gather_S64x35709x3_S68x1_S64x68x3_02_1_n_n_1_1_6413_wf g idxT b l c).trans ?_
  refine congrArg (fun v => g (ix3 b v c)) (Fin.ext ?_)
  show min (idxT (ix2 l (0 : Fin 1))).toInt.toNat (35709 - 1) = (lit0 l).toNat
  rw [idxT_apply]
  exact lit0_clamp l

/-! ## The geometry -/

theorem dotA_apply (x : FVec Ideal S64x80 .f32) (y : FVec Ideal S107127x80 .f32) (b : Fin 64) (v : Fin 107127) :
    Host.dotGeneral dot_S64x80_S107127x80_S64x107127_1_1_0_0_n_n none x y (ix2 b v)
      = ∑ k : Fin 80, x (ix2 b k) * y (ix2 v k) :=
  nt_apply dot_S64x80_S107127x80_S64x107127_1_1_0_0_n_n_wf x y b v

theorem dotE_apply (x : FVec Ideal S64x64 .f32) (y : FVec Ideal S107127x64 .f32) (b : Fin 64) (v : Fin 107127) :
    Host.dotGeneral dot_S64x64_S107127x64_S64x107127_1_1_0_0_n_n none x y (ix2 b v)
      = ∑ k : Fin 64, x (ix2 b k) * y (ix2 v k) :=
  nt_apply dot_S64x64_S107127x64_S64x107127_1_1_0_0_n_n_wf x y b v

/-- The geometry array at (b, v, c): coefficient row b against row 3 v + c of the two bases. -/
theorem geoT_apply (a : FVec Ideal S64x80x1 .f32) (d : FVec Ideal S64x64x1 .f32) (A : FVec Ideal S107127x80 .f32)
    (E : FVec Ideal S107127x64 .f32) (b : Fin 64) (v : Fin 35709) (c : Fin 3) :
    geoT a d A E (ix3 b v c)
      = Cert.GeoLoss.geoRef A E a d b ⟨3 * v.val + c.val, by have := v.isLt; have := c.isLt; omega⟩ := by
  unfold geoT
  refine (splitLast_apply (P := 107127) (N := 35709) (C := 3) (by norm_num) _ shapeCasts_S64x107127_S64x35709x3 b v c).trans ?_
  have hv : (⟨v.val * 3 + c.val, by have := v.isLt; have := c.isLt; omega⟩ : Fin 107127)
      = ⟨3 * v.val + c.val, by have := v.isLt; have := c.isLt; omega⟩ := Fin.ext (by show v.val * 3 + c.val = 3 * v.val + c.val; omega)
  rw [hv, addf_apply, dotA_apply, dotE_apply]
  unfold Cert.GeoLoss.geoRef
  congr 1
  · exact Finset.sum_congr rfl fun k _ => congrArg (· * _) (dropLast_apply a shapeCasts_S64x80x1_S64x80 b k)
  · exact Finset.sum_congr rfl fun k _ => congrArg (· * _) (dropLast_apply d shapeCasts_S64x64x1_S64x64 b k)

end Cert.ReferenceIdeal.RefRead

end
-- ==== Proof.RefValue.lean ====
/-
  The reference's result is the landmark loss in the vertices-last arrangement: the sum from the zero word over
  (batch, vertex position, coordinate) of weight times squared difference of the two geometries at the selected
  vertex, divided by the word of 68 -- the specification's refLoss at the program's own two tables.
-/
import proofs.«113782_j4947802325291_2_alg».proof.Proof.RefRead

noncomputable section

open scoped BigOperators

namespace Cert.ReferenceIdeal.RefValue

open Cert.ReferenceIdeal Cert.ReferenceIdeal.Gen Cert.ReferenceIdeal.RefRun Cert.Lib.SlabGather
open Idealize.ShloMosaic Idealize.ShloMosaic.TcCoe Idealize.SL.Sem Idealize.ShloMosaic.ValueIdx

export Cert.ReferenceIdeal.RefRead (lmR lmR_val wR wR_eq)

open Cert.ReferenceIdeal.RefRead

/-- The host's quotient at an index is the quotient of the operands there. -/
theorem hostDivf_apply {s : Shape} (x y : FVec Ideal s .f32) (j : s.Idx) : Host.divf x y j = Ideal.div (x j) (y j) := rfl

/-- The staged term of the run is the specification's number, at every (the one) index of the result. -/
theorem lossT_eq (a : FVec Ideal S64x80x1 .f32) (d : FVec Ideal S64x64x1 .f32) (a' : FVec Ideal S64x80x1 .f32)
    (d' : FVec Ideal S64x64x1 .f32) (A : FVec Ideal S107127x80 .f32) (E : FVec Ideal S107127x64 .f32) :
    lossT (F := Ideal) a d a' d' A E = fun _ => Cert.GeoLoss.refLoss lmR wR a d a' d' A E := by
  funext j
  unfold lossT Cert.GeoLoss.refLoss
  rw [hostDivf_apply, constant_apply]
  congr 1
  rw [hostReduceAdd_apply, constant_apply, Ideal.hostReduceAdd_total _ (fun b => b.elim0), sum_idx3]
  congr 1
  refine Finset.sum_congr rfl fun b _ => Finset.sum_congr rfl fun l _ => Finset.sum_congr rfl fun c _ => ?_
  unfold termT
  rw [mulf_apply, mulf_apply, subf_apply, wT_apply, pickT_apply, pickT_apply, geoT_apply, geoT_apply]
  rfl

/-- Every weakly fair execution of the reference terminates with its result the specification's number and
    its six arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v32) = (fun _ => Cert.GeoLoss.refLoss lmR wR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (lossT_eq _ _ _ _ _ _), (h c).2⟩) (RefRun.run (F := Ideal) m ρ)

end Cert.ReferenceIdeal.RefValue

end
-- ==== Proof.lean ====
/-
  The certificate of a landmark geometry loss.

  Both programs compute, from two coefficient batches (a, d) and (a', d') and two bases A, E,
      ( sum over 68 landmark vertices, their 3 coordinates and the 64 batch elements of
          weight * (g - g')^2 ) / 68,      g(b, v) = sum_k A(v,k) a(b,k) + sum_k E(v,k) d(b,k).
  The kernel's program selects the 204 = 68 * 3 rows of the bases first and contracts only those; the reference
  contracts every row, regroups the rows as (vertex, coordinate) and selects the 68 vertices afterwards.  At the
  exact values the two are one number (Proof/Spec.lean: a re-indexing of the sum along (l, c) |-> 3 l + c, an
  exchange of two sums and the commutativity of the product), given that the two programs' literal tables agree
  (Proof/Tables.lean).  The kernel's number is read off its run in Proof/KValue.lean (the host lines before the
  region in Proof/KHost.lean and Proof/KArrays.lean, the body in Proof/KBody.lean), the reference's in
  Proof/RefValue.lean (its run in Proof/RefRun.lean, read at an index in Proof/RefRead.lean).  The kernel rounds
  nothing back and names no constant, so the idealization rewrote nothing and `preserves` is `True`.
-/
import proofs.«113782_j4947802325291_2_alg».proof.Defs
import proofs.«113782_j4947802325291_2_alg».proof.Proof.Gen.Kernel
import proofs.«113782_j4947802325291_2_alg».proof.Proof.Gen.Kernel.Skeleton
import proofs.«113782_j4947802325291_2_alg».proof.Proof.Gen.Kernel.Launch
import proofs.«113782_j4947802325291_2_alg».proof.Proof.Gen.Kernel.Points
import proofs.«113782_j4947802325291_2_alg».proof.Proof.Gen.Kernel.Frame
import proofs.«113782_j4947802325291_2_alg».proof.Proof.Gen.KernelIdeal
import proofs.«113782_j4947802325291_2_alg».proof.Proof.Gen.KernelIdeal.Skeleton
import proofs.«113782_j4947802325291_2_alg».proof.Proof.Gen.KernelIdeal.Launch
import proofs.«113782_j4947802325291_2_alg».proof.Proof.Gen.KernelIdeal.Points
import proofs.«113782_j4947802325291_2_alg».proof.Proof.Gen.KernelIdeal.Frame
import proofs.«113782_j4947802325291_2_alg».proof.Proof.Gen.ReferenceIdeal
import proofs.«113782_j4947802325291_2_alg».proof.Proof.Gen.Pre_finite_inputs
import proofs.«113782_j4947802325291_2_alg».proof.Proof.Spec
import proofs.«113782_j4947802325291_2_alg».proof.Proof.Tables
import proofs.«113782_j4947802325291_2_alg».proof.Proof.KValue
import proofs.«113782_j4947802325291_2_alg».proof.Proof.RefValue
import Idealize.ShloMosaic.Adequacy
import Idealize.ShloMosaic.Init

noncomputable section

namespace Cert.Proof

open Idealize.ShloMosaic Idealize.SL.Sem

/-- Row `3 l + c` of the kernel's row table is coordinate `c` of the reference's vertex `l`. -/
theorem rows_eq (l : Fin 68) (c : Fin 3) :
    Cert.KernelIdeal.HostIn.rows (finProdFinEquiv (l, c)) = Cert.GeoLoss.vtx Cert.ReferenceIdeal.RefValue.lmR l c :=
  Fin.ext (by
    show (Cert.KernelIdeal.lit0 (finProdFinEquiv (l, c))).toNat = 3 * (Cert.ReferenceIdeal.RefValue.lmR l).val + c.val
    rw [Cert.ReferenceIdeal.RefValue.lmR_val]
    exact Cert.Tables.rows_tab l c)

/-- And it carries that vertex's weight. -/
theorem w_eq (l : Fin 68) (c : Fin 3) :
    Cert.KernelIdeal.KValue.wK (finProdFinEquiv (l, c)) = Cert.ReferenceIdeal.RefValue.wR l := by
  unfold Cert.KernelIdeal.KValue.wK
  rw [Cert.Tables.w_tab, Cert.ReferenceIdeal.RefValue.wR_eq]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefValue.run m ρ)

/-- The idealization rewrote nothing. -/
theorem preserves : Cert.preserves_Kernel_KernelIdeal := trivial

/-- From memories that agree on the six arguments the kernel ends at the loss with the rows selected first and the
    reference at the loss with the vertices selected last, of the same arrays: one number. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2.1, (hagree c).2.2.2.2.2]
  funext _
  exact Cert.GeoLoss.refLoss_eq_loss Cert.KernelIdeal.HostIn.rows Cert.KernelIdeal.KValue.wK
    Cert.ReferenceIdeal.RefValue.lmR Cert.ReferenceIdeal.RefValue.wR rows_eq w_eq _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
